-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S256x16 : Shape := ⟨2, ![256, 16]⟩
abbrev S16 : Shape := ⟨1, ![16]⟩
abbrev S256x256 : Shape := ⟨2, ![256, 256]⟩
abbrev S256 : Shape := ⟨1, ![256]⟩
abbrev S16x256 : Shape := ⟨2, ![16, 256]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256x16 .f32) (main_arg12 : FVec F S16 .f32) (main_arg13 : FVec F S16x256 .f32) (main_arg14 : FVec F S256 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S256x16 .f32 := Host.absf main_arg11
  let main_cst_20 : FVec F S_ .f32 := constant S_ .f32 0x7F800000#32
  let main_v55 : FVec F S256x16 .f32 := broadcastInDim S256x16 ![] bcast_S_S256x16 main_cst_20
  let main_v56 : IVec S256x16 1 := cmpf .olt main_v54 main_v55
  let main_c_21 : IVec S_ 1 := constantI S_ 1 1#1
  let main_v57 : IVec S_ 1 := (fun x v => Host.reduce IntOp.andi x v reducesTo_S256x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x256 .f32 := Host.absf main_arg13
  let main_cst_24 : FVec F S_ .f32 := constant S_ .f32 0x7F800000#32
  let main_v65 : FVec F S16x256 .f32 := broadcastInDim S16x256 ![] bcast_S_S16x256 main_cst_24
  let main_v66 : IVec S16x256 1 := cmpf .olt main_v64 main_v65
  let main_c_25 : IVec S_ 1 := constantI S_ 1 1#1
  let main_v67 : IVec S_ 1 := (fun x v => Host.reduce IntOp.andi x v reducesTo_S16x256_S_d0_1 h_S_) main_v66 main_c_25
  fn_part4 (F := F) main_arg14 main_v63 main_v67

def fn_part2 {F : FTy → Type} [FloatOps F] (main_arg7 : FVec F S256x16 .f32) (main_arg8 : FVec F S16 .f32) (main_arg9 : FVec F S256x16 .f32) (main_arg10 : FVec F S16 .f32) (main_arg11 : FVec F S256x16 .f32) (main_arg12 : FVec F S16 .f32) (main_arg13 : FVec F S16x256 .f32) (main_arg14 : FVec F S256 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_v48 main_v49 main_v50

def fn_part1 {F : FTy → Type} [FloatOps F] (main_arg4 : FVec F S16 .f32) (main_arg5 : FVec F S256x256 .f32) (main_arg6 : FVec F S256 .f32) (main_arg7 : FVec F S256x16 .f32) (main_arg8 : FVec F S16 .f32) (main_arg9 : FVec F S256x16 .f32) (main_arg10 : FVec F S16 .f32) (main_arg11 : FVec F S256x16 .f32) (main_arg12 : FVec F S16 .f32) (main_arg13 : FVec F S16x256 .f32) (main_arg14 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x64x64x256 .f32) (main_arg1 : FVec F S256x16 .f32) (main_arg2 : FVec F S16 .f32) (main_arg3 : FVec F S256x16 .f32) (main_arg4 : FVec F S16 .f32) (main_arg5 : FVec F S256x256 .f32) (main_arg6 : FVec F S256 .f32) (main_arg7 : FVec F S256x16 .f32) (main_arg8 : FVec F S16 .f32) (main_arg9 : FVec F S256x16 .f32) (main_arg10 : FVec F S16 .f32) (main_arg11 : FVec F S256x16 .f32) (main_arg12 : FVec F S16 .f32) (main_arg13 : FVec F S16x256 .f32) (main_arg14 : FVec F S256 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x64x64x256 : Shape := ⟨4, ![8, 64, 64, 256]⟩
abbrev S256x16 : Shape := ⟨2, ![256, 16]⟩
abbrev S16 : Shape := ⟨1, ![16]⟩
abbrev S256x256 : Shape := ⟨2, ![256, 256]⟩
abbrev S256 : Shape := ⟨1, ![256]⟩
abbrev S16x256 : Shape := ⟨2, ![16, 256]⟩
abbrev S8x4096x256 : Shape := ⟨3, ![8, 4096, 256]⟩
abbrev S1x16 : Shape := ⟨2, ![1, 16]⟩
abbrev S1x256 : Shape := ⟨2, ![1, 256]⟩
abbrev S1x4096x256 : Shape := ⟨3, ![1, 4096, 256]⟩
abbrev S1x256x256 : Shape := ⟨3, ![1, 256, 256]⟩
abbrev S4096x16 : Shape := ⟨2, ![4096, 16]⟩
abbrev S4096x256 : Shape := ⟨2, ![4096, 256]⟩
abbrev S16x16 : Shape := ⟨2, ![16, 16]⟩
abbrev S16x1 : Shape := ⟨2, ![16, 1]⟩
abbrev S256x4096 : Shape := ⟨2, ![256, 4096]⟩
abbrev S256x1 : Shape := ⟨2, ![256, 1]⟩

abbrev nBuf : Space → Nat
  | .hbm => 25
  | .vmem => 21
  | .smem => 0
  | _ => 0

abbrev bufTy : (tb : Table) → Fin (tcTables nBuf tb) → BufTy
  | .hbm, ⟨0, _⟩ => ⟨S8x64x64x256, .f32⟩
  | .hbm, ⟨1, _⟩ => ⟨S256x16, .f32⟩
  | .hbm, ⟨2, _⟩ => ⟨S16, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S256x16, .f32⟩
  | .hbm, ⟨10, _⟩ => ⟨S16, .f32⟩
  | .hbm, ⟨11, _⟩ => ⟨S256x16, .f32⟩
  | .hbm, ⟨12, _⟩ => ⟨S16, .f32⟩
  | .hbm, ⟨13, _⟩ => ⟨S16x256, .f32⟩
  | .hbm, ⟨14, _⟩ => ⟨S256, .f32⟩
  | .hbm, ⟨15, _⟩ => ⟨S8x4096x256, .f32⟩
  | .hbm, ⟨16, _⟩ => ⟨S1x16, .f32⟩
  | .hbm, ⟨17, _⟩ => ⟨S1x16, .f32⟩
  | .hbm, ⟨18, _⟩ => ⟨S1x256, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x256, .f32⟩
  | .hbm, ⟨23, _⟩ => ⟨S8x4096x256, .f32⟩
  | .hbm, ⟨24, _⟩ => ⟨S8x64x64x256, .f32⟩
  | .local _ .vmem, ⟨0, _⟩ => ⟨S1x4096x256, .f32⟩
  | .local _ .vmem, ⟨1, _⟩ => ⟨S1x4096x256, .f32⟩
  | .local _ .vmem, ⟨2, _⟩ => ⟨S256x16, .f32⟩
  | .local _ .vmem, ⟨3, _⟩ => ⟨S1x16, .f32⟩
  | .local _ .vmem, ⟨4, _⟩ => ⟨S256x16, .f32⟩
  | .local _ .vmem, ⟨5, _⟩ => ⟨S1x16, .f32⟩
  | .local _ .vmem, ⟨6, _⟩ => ⟨S256x256, .f32⟩
  | .local _ .vmem, ⟨7, _⟩ => ⟨S1x256, .f32⟩
  | .local _ .vmem, ⟨8, _⟩ => ⟨S256x16, .f32⟩
  | .local _ .vmem, ⟨9, _⟩ => ⟨S1x16, .f32⟩
  | .local _ .vmem, ⟨10, _⟩ => ⟨S256x16, .f32⟩
  | .local _ .vmem, ⟨11, _⟩ => ⟨S1x16, .f32⟩
  | .local _ .vmem, ⟨12, _⟩ => ⟨S256x16, .f32⟩
  | .local _ .vmem, ⟨13, _⟩ => ⟨S1x16, .f32⟩
  | .local _ .vmem, ⟨14, _⟩ => ⟨S16x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S4096x16, .bf16⟩
  | .local _ .vmem, ⟨19, _⟩ => ⟨S4096x256, .bf16⟩
  | .local _ .vmem, ⟨20, _⟩ => ⟨S16x16, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S16x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  shapeCasts_S8x64x64x256_S8x4096x256 : S8x64x64x256.ShapeCasts S8x4096x256
  shapeCasts_S16_S1x16 : S16.ShapeCasts S1x16
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  packedbf16_S4096x16_S4096x16_0_0 : (Rect.unit (s := S4096x16) ![0, 0] S4096x16.size inb_S4096x16_S4096x16_0_0).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  reduces_S16x16_S16 : S16x16.Reduces [1] S16
  shapeCasts_S16_S16x1 : S16.ShapeCasts S16x1
  broadcasts_S16x1_S16x16 : S16x1.Broadcasts S16x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  h_S1x256x256 : 0 < S1x256x256.numel
  shapeCasts_S1x256x256_S256x256 : S1x256x256.ShapeCasts S256x256
  broadcasts_S1x16_S256x16 : S1x16.Broadcasts S256x16
  reduces_S256x4096_S256 : S256x4096.Reduces [1] S256
  shapeCasts_S256_S256x1 : S256.ShapeCasts S256x1
  broadcasts_S256x1_S256x4096 : S256x1.Broadcasts S256x4096
  inb_S16x256_S16x256_0_0 : ∀ a, (![0, 0] : Fin 2 → Nat) a + S16x256.size a ≤ S16x256.size a
  h_S16x256 : 0 < S16x256.numel
  broadcasts_S1x256_S256x256 : S1x256.Broadcasts S256x256
  inb_S1x256x256_S1x256x256_0_0_0 : ∀ a, (![0, 0, 0] : Fin 3 → Nat) a + S1x256x256.size a ≤ S1x256x256.size a
  shapeCasts_S256x256_S1x256x256 : S256x256.ShapeCasts S1x256x256
  shapeCasts_S8x4096x256_S8x64x64x256 : S8x4096x256.ShapeCasts S8x64x64x256
  dot_S4096x256_S256x16_S4096x16_1_0_0_1_n_n_wf : DotDims.WF S4096x256 S256x16 S4096x16 [1] [0] [0] [1] [] []
  dot_S4096x256_S256x256_S4096x256_1_0_0_1_n_n_wf : DotDims.WF S4096x256 S256x256 S4096x256 [1] [0] [0] [1] [] []
  dot_S4096x16_S4096x16_S16x16_0_0_1_1_n_n_wf : DotDims.WF S4096x16 S4096x16 S16x16 [0] [0] [1] [1] [] []
  dot_S256x256_S256x16_S256x16_1_0_0_1_n_n_wf : DotDims.WF S256x256 S256x16 S256x16 [1] [0] [0] [1] [] []
  dot_S256x16_S4096x16_S256x4096_1_1_0_0_n_n_wf : DotDims.WF S256x16 S4096x16 S256x4096 [1] [1] [0] [0] [] []
  dot_S256x4096_S4096x256_S256x256_1_0_0_1_n_n_wf : DotDims.WF S256x4096 S4096x256 S256x256 [1] [0] [0] [1] [] []
  dot_S256x16_S16x16_S256x16_1_1_0_0_n_n_wf : DotDims.WF S256x16 S16x16 S256x16 [1] [1] [0] [0] [] []
  dot_S256x16_S16x256_S256x256_1_0_0_1_n_n_wf : DotDims.WF S256x16 S16x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S256x16.size a
  hwx0_7 : ∀ i : grid0.Coords, EltTy.bits .f32 = 32 ∨ (Rect.block (s := S256x16) S256x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x16.size a ≤ S256x16.size a
  hwx0_9 : ∀ i : grid0.Coords, EltTy.bits .f32 = 32 ∨ (Rect.block (s := S256x16) S256x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x16.size a ≤ S256x16.size a
  hwx0_11 : ∀ i : grid0.Coords, EltTy.bits .f32 = 32 ∨ (Rect.block (s := S256x16) S256x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x256.size a ≤ S16x256.size a
  hwx0_13 : ∀ i : grid0.Coords, EltTy.bits .f32 = 32 ∨ (Rect.block (s := S16x256) S16x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256x256.size a ≤ S8x4096x256.size a
  hwx0_15 : ∀ i : grid0.Coords, EltTy.bits .f32 = 32 ∨ (Rect.block (s := S8x4096x256) S1x256x256.size (cc0_transform_15 i) (hinb0_15 i)).WholeWords (EltTy.packing .f32)

variable [Facts₀]

def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x16_S4096x16_S16x16_0_0_1_1_n_n : DotDims S4096x16 S4096x16 S16x16 where
  lhsContracting := [0]
  rhsContracting := [0]
  lhsNonContracting := [1]
  rhsNonContracting := [1]
  lhsBatch := []
  rhsBatch := []
  wf := dot_S4096x16_S4096x16_S16x16_0_0_1_1_n_n_wf
def dot_S256x256_S256x16_S256x16_1_0_0_1_n_n : DotDims S256x256 S256x16 S256x16 where
  lhsContracting := [1]
  rhsContracting := [0]
  lhsNonContracting := [0]
  rhsNonContracting := [1]
  lhsBatch := []
  rhsBatch := []
  wf := dot_S256x256_S256x16_S256x16_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x16_S16x16_S256x16_1_1_0_0_n_n : DotDims S256x16 S16x16 S256x16 where
  lhsContracting := [1]
  rhsContracting := [1]
  lhsNonContracting := [0]
  rhsNonContracting := [0]
  lhsBatch := []
  rhsBatch := []
  wf := dot_S256x16_S16x16_S256x16_1_1_0_0_n_n_wf
def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S16x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x256x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8x64x64x256 : Shape := ⟨4, ![8, 64, 64, 256]⟩
abbrev S256x16 : Shape := ⟨2, ![256, 16]⟩
abbrev S16 : Shape := ⟨1, ![16]⟩
abbrev S256x256 : Shape := ⟨2, ![256, 256]⟩
abbrev S256 : Shape := ⟨1, ![256]⟩
abbrev S16x256 : Shape := ⟨2, ![16, 256]⟩
abbrev S_ : Shape := ⟨0, ![]⟩
abbrev S8x64x64x16 : Shape := ⟨4, ![8, 64, 64, 16]⟩
abbrev S1x1x1x16 : Shape := ⟨4, ![1, 1, 1, 16]⟩
abbrev S8x4096x16 : Shape := ⟨3, ![8, 4096, 16]⟩
abbrev S1x1x1x256 : Shape := ⟨4, ![1, 1, 1, 256]⟩
abbrev S8x4096x256 : Shape := ⟨3, ![8, 4096, 256]⟩
abbrev S8x4096x4096 : Shape := ⟨3, ![8, 4096, 4096]⟩
abbrev S8x4096 : Shape := ⟨2, ![8, 4096]⟩
abbrev S8x4096x1 : Shape := ⟨3, ![8, 4096, 1]⟩
abbrev S8x16x16 : Shape := ⟨3, ![8, 16, 16]⟩
abbrev S8x16 : Shape := ⟨2, ![8, 16]⟩
abbrev S8x16x1 : Shape := ⟨3, ![8, 16, 1]⟩

abbrev nBuf : Space → Nat
  | .hbm => 91
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S256x16, .f32⟩
  | .hbm, ⟨2, _⟩ => ⟨S16, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S256x16, .f32⟩
  | .hbm, ⟨10, _⟩ => ⟨S16, .f32⟩
  | .hbm, ⟨11, _⟩ => ⟨S256x16, .f32⟩
  | .hbm, ⟨12, _⟩ => ⟨S16, .f32⟩
  | .hbm, ⟨13, _⟩ => ⟨S16x256, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S8x64x64x16, .f32⟩
  | .hbm, ⟨18, _⟩ => ⟨S1x1x1x16, .f32⟩
  | .hbm, ⟨19, _⟩ => ⟨S8x64x64x16, .f32⟩
  | .hbm, ⟨20, _⟩ => ⟨S8x64x64x16, .f32⟩
  | .hbm, ⟨21, _⟩ => ⟨S8x4096x16, .f32⟩
  | .hbm, ⟨22, _⟩ => ⟨S8x64x64x16, .f32⟩
  | .hbm, ⟨23, _⟩ => ⟨S1x1x1x16, .f32⟩
  | .hbm, ⟨24, _⟩ => ⟨S8x64x64x16, .f32⟩
  | .hbm, ⟨25, _⟩ => ⟨S8x64x64x16, .f32⟩
  | .hbm, ⟨26, _⟩ => ⟨S8x4096x16, .f32⟩
  | .hbm, ⟨27, _⟩ => ⟨S8x64x64x256, .f32⟩
  | .hbm, ⟨28, _⟩ => ⟨S1x1x1x256, .f32⟩
  | .hbm, ⟨29, _⟩ => ⟨S8x64x64x256, .f32⟩
  | .hbm, ⟨30, _⟩ => ⟨S8x64x64x256, .f32⟩
  | .hbm, ⟨31, _⟩ => ⟨S8x4096x256, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x256, .f32⟩
  | .hbm, ⟨50, _⟩ => ⟨S8x64x64x256, .f32⟩
  | .hbm, ⟨51, _⟩ => ⟨S8x64x64x16, .f32⟩
  | .hbm, ⟨52, _⟩ => ⟨S1x1x1x16, .f32⟩
  | .hbm, ⟨53, _⟩ => ⟨S8x64x64x16, .f32⟩
  | .hbm, ⟨54, _⟩ => ⟨S8x64x64x16, .f32⟩
  | .hbm, ⟨55, _⟩ => ⟨S8x4096x16, .f32⟩
  | .hbm, ⟨56, _⟩ => ⟨S8x64x64x16, .f32⟩
  | .hbm, ⟨57, _⟩ => ⟨S1x1x1x16, .f32⟩
  | .hbm, ⟨58, _⟩ => ⟨S8x64x64x16, .f32⟩
  | .hbm, ⟨59, _⟩ => ⟨S8x64x64x16, .f32⟩
  | .hbm, ⟨60, _⟩ => ⟨S8x4096x16, .f32⟩
  | .hbm, ⟨61, _⟩ => ⟨S8x64x64x16, .f32⟩
  | .hbm, ⟨62, _⟩ => ⟨S1x1x1x16, .f32⟩
  | .hbm, ⟨63, _⟩ => ⟨S8x64x64x16, .f32⟩
  | .hbm, ⟨64, _⟩ => ⟨S8x64x64x16, .f32⟩
  | .hbm, ⟨65, _⟩ => ⟨S8x4096x16, .f32⟩
  | .hbm, ⟨66, _⟩ => ⟨S8x16x16, .f32⟩
  | .hbm, ⟨67, _⟩ => ⟨S8x16x16, .f32⟩
  | .hbm, ⟨68, _⟩ => ⟨S8x16x16, .f32⟩
  | .hbm, ⟨69, _⟩ => ⟨S_, .f32⟩
  | .hbm, ⟨70, _⟩ => ⟨S8x16, .f32⟩
  | .hbm, ⟨71, _⟩ => ⟨S_, .f32⟩
  | .hbm, ⟨72, _⟩ => ⟨S8x16, .f32⟩
  | .hbm, ⟨73, _⟩ => ⟨S8x16, .f32⟩
  | .hbm, ⟨74, _⟩ => ⟨S8x16x1, .f32⟩
  | .hbm, ⟨75, _⟩ => ⟨S8x16x16, .f32⟩
  | .hbm, ⟨76, _⟩ => ⟨S8x16x16, .f32⟩
  | .hbm, ⟨77, _⟩ => ⟨S8x16x16, .f32⟩
  | .hbm, ⟨78, _⟩ => ⟨S_, .f32⟩
  | .hbm, ⟨79, _⟩ => ⟨S8x16, .f32⟩
  | .hbm, ⟨80, _⟩ => ⟨S8x16x1, .f32⟩
  | .hbm, ⟨81, _⟩ => ⟨S8x16x16, .f32⟩
  | .hbm, ⟨82, _⟩ => ⟨S8x16x16, .f32⟩
  | .hbm, ⟨83, _⟩ => ⟨S8x4096x16, .f32⟩
  | .hbm, ⟨84, _⟩ => ⟨S8x64x64x16, .f32⟩
  | .hbm, ⟨85, _⟩ => ⟨S8x64x64x256, .f32⟩
  | .hbm, ⟨86, _⟩ => ⟨S1x1x1x256, .f32⟩
  | .hbm, ⟨87, _⟩ => ⟨S8x64x64x256, .f32⟩
  | .hbm, ⟨88, _⟩ => ⟨S8x64x64x256, .f32⟩
  | .hbm, ⟨89, _⟩ => ⟨S8x64x64x256, .f32⟩
  | .hbm, ⟨90, _⟩ => ⟨S8x64x64x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]

class Facts₀ : Prop where
  bcast_S16_S1x1x1x16_3 : S16.BroadcastsInDim S1x1x1x16 (![3] : Fin 1 → Fin S1x1x1x16.rank)
  bcast_S1x1x1x16_S8x64x64x16_0_1_2_3 : S1x1x1x16.BroadcastsInDim S8x64x64x16 (![0, 1, 2, 3] : Fin 4 → Fin S8x64x64x16.rank)
  shapeCasts_S8x64x64x16_S8x4096x16 : S8x64x64x16.ShapeCasts S8x4096x16
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  shapeCasts_S8x64x64x256_S8x4096x256 : S8x64x64x256.ShapeCasts S8x4096x256
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  shapeCasts_S8x4096x256_S8x64x64x256 : S8x4096x256.ShapeCasts S8x64x64x256
  bcast_S_S8x16x16 : S_.BroadcastsInDim S8x16x16 (![] : Fin 0 → Fin S8x16x16.rank)
  reducesTo_S8x16x16_S8x16_d2 : S8x16x16.ReducesTo [2] S8x16
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16x1_S8x16x16_0_1_2 : S8x16x1.BroadcastsInDim S8x16x16 (![0, 1, 2] : Fin 3 → Fin S8x16x16.rank)
  shapeCasts_S8x4096x16_S8x64x64x16 : S8x4096x16.ShapeCasts S8x64x64x16
  dot_S8x64x64x256_S256x16_S8x64x64x16_3_0_012_1_n_n_wf : DotDims.WF S8x64x64x256 S256x16 S8x64x64x16 [3] [0] [0, 1, 2] [1] [] []
  dot_S8x64x64x256_S256x256_S8x64x64x256_3_0_012_1_n_n_wf : DotDims.WF S8x64x64x256 S256x256 S8x64x64x256 [3] [0] [0, 1, 2] [1] [] []
  dot_S8x4096x16_S8x4096x16_S8x4096x4096_2_2_1_1_0_0_wf : DotDims.WF S8x4096x16 S8x4096x16 S8x4096x4096 [2] [2] [1] [1] [0] [0]
  dot_S8x4096x4096_S8x4096x256_S8x4096x256_2_1_1_2_0_0_wf : DotDims.WF S8x4096x4096 S8x4096x256 S8x4096x256 [2] [1] [1] [2] [0] [0]
  dot_S8x4096x16_S8x4096x16_S8x16x16_1_1_2_2_0_0_wf : DotDims.WF S8x4096x16 S8x4096x16 S8x16x16 [1] [1] [2] [2] [0] [0]
  dot_S8x4096x16_S8x16x16_S8x4096x16_2_2_1_1_0_0_wf : DotDims.WF S8x4096x16 S8x16x16 S8x4096x16 [2] [2] [1] [1] [0] [0]
  dot_S8x64x64x16_S16x256_S8x64x64x256_3_0_012_1_n_n_wf : DotDims.WF S8x64x64x16 S16x256 S8x64x64x256 [3] [0] [0, 1, 2] [1] [] []

variable [Facts₀]

def dot_S8x64x64x256_S256x16_S8x64x64x16_3_0_012_1_n_n : DotDims S8x64x64x256 S256x16 S8x64x64x16 where
  lhsContracting := [3]
  rhsContracting := [0]
  lhsNonContracting := [0, 1, 2]
  rhsNonContracting := [1]
  lhsBatch := []
  rhsBatch := []
  wf := dot_S8x64x64x256_S256x16_S8x64x64x16_3_0_012_1_n_n_wf
def dot_S8x64x64x256_S256x256_S8x64x64x256_3_0_012_1_n_n : DotDims S8x64x64x256 S256x256 S8x64x64x256 where
  lhsContracting := [3]
  rhsContracting := [0]
  lhsNonContracting := [0, 1, 2]
  rhsNonContracting := [1]
  lhsBatch := []
  rhsBatch := []
  wf := dot_S8x64x64x256_S256x256_S8x64x64x256_3_0_012_1_n_n_wf
def dot_S8x4096x16_S8x4096x16_S8x4096x4096_2_2_1_1_0_0 : DotDims S8x4096x16 S8x4096x16 S8x4096x4096 where
  lhsContracting := [2]
  rhsContracting := [2]
  lhsNonContracting := [1]
  rhsNonContracting := [1]
  lhsBatch := [0]
  rhsBatch := [0]
  wf := dot_S8x4096x16_S8x4096x16_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x16_S8x4096x16_S8x16x16_1_1_2_2_0_0 : DotDims S8x4096x16 S8x4096x16 S8x16x16 where
  lhsContracting := [1]
  rhsContracting := [1]
  lhsNonContracting := [2]
  rhsNonContracting := [2]
  lhsBatch := [0]
  rhsBatch := [0]
  wf := dot_S8x4096x16_S8x4096x16_S8x16x16_1_1_2_2_0_0_wf
def dot_S8x4096x16_S8x16x16_S8x4096x16_2_2_1_1_0_0 : DotDims S8x4096x16 S8x16x16 S8x4096x16 where
  lhsContracting := [2]
  rhsContracting := [2]
  lhsNonContracting := [1]
  rhsNonContracting := [1]
  lhsBatch := [0]
  rhsBatch := [0]
  wf := dot_S8x4096x16_S8x16x16_S8x4096x16_2_2_1_1_0_0_wf
def dot_S8x64x64x16_S16x256_S8x64x64x256_3_0_012_1_n_n : DotDims S8x64x64x16 S16x256 S8x64x64x256 where
  lhsContracting := [3]
  rhsContracting := [0]
  lhsNonContracting := [0, 1, 2]
  rhsNonContracting := [1]
  lhsBatch := []
  rhsBatch := []
  wf := dot_S8x64x64x16_S16x256_S8x64x64x256_3_0_012_1_n_n_wf

class Facts : Prop extends Facts₀ where

variable [Facts]
-- ==== Proof.KPieces.lean ====
/-
  What the kernel body leaves behind at one grid point, as pure functions of the blocks it loads.

  At the first row tile of a batch element the body computes, from the batch element's whole block, the keys, the
  values and the channel attention, stores them in the three scratch buffers, and then computes the tile's output rows
  from the scratch it has just written. At every other row tile it leaves the scratch alone and computes the tile's
  output rows from the scratch as the previous point left it. In both cases the output rows are ONE function
  (`outOf`) of the tile's rows, the weights and the three scratch contents.
-/
import proofs.«158731_j21148418965908_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 256 rows of the batch element's block that the point's row tile covers. -/
def tile (i : grid0.Coords) (x0 : Vec F S1x4096x256 .f32) : Vec F S1x256x256 .f32 :=
  View.ld x0 (Rect.unit (s := S1x4096x256) (k0_off1 i) S1x256x256.size (k0_off1_inb i))

/-- The output rows of a tile from the tile's rows `tl`, the query, channel-value and output projections' weights, and
    the keys `s0`, values `s1` and channel attention `s2` of the batch element. -/
def outOf (tl : Vec F S1x256x256 .f32) (x1 : Vec F S256x16 .f32) (x2 : Vec F S1x16 .f32) (x11 : Vec F S256x16 .f32)
    (x12 : Vec F S1x16 .f32) (x13 : Vec F S16x256 .f32) (x14 : Vec F S1x256 .f32) (s0 : Vec F S4096x16 .bf16)
    (s1 : Vec F S4096x256 .bf16) (s2 : Vec F S16x16 .f32) : Vec F S1x256x256 .f32 :=
  k0_pay1 (k0_pay8 tl) (k0_pay10 tl x11 x12) s1 s2 (k0_pay11 tl x1 x2 s0) (k0_pay12 tl x1 x2 s0) x13 x14

/-- The channel attention of a batch element from its whole block and the channel query / key weights. -/
def chanOf (x0 : Vec F S1x4096x256 .f32) (x7 : Vec F S256x16 .f32) (x8 : Vec F S1x16 .f32) (x9 : Vec F S256x16 .f32)
    (x10 : Vec F S1x16 .f32) : Vec F S16x16 .f32 :=
  k0_pay7 (k0_pay2 x0) (k0_pay5 x0 x9 x10) (k0_pay6 x7) x8

/-- A later row tile: the output rows from the scratch the previous point left. -/
theorem out_B (c : Dev nD) (i : grid0.Coords) (arg2 : Memref sig .tc .vmem S1x4096x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x16 .f32) (harg9 : arg9.IsWhole) (arg10 : Memref sig .tc .vmem S1x16 .f32) (harg10 : arg10.IsWhole) (arg11 : Memref sig .tc .vmem S256x16 .f32) (harg11 : arg11.IsWhole) (arg12 : Memref sig .tc .vmem S1x16 .f32) (harg12 : arg12.IsWhole) (arg13 : Memref sig .tc .vmem S256x16 .f32) (harg13 : arg13.IsWhole) (arg14 : Memref sig .tc .vmem S1x16 .f32) (harg14 : arg14.IsWhole) (arg15 : Memref sig .tc .vmem S16x256 .f32) (harg15 : arg15.IsWhole) (arg16 : Memref sig .tc .vmem S1x256 .f32) (harg16 : arg16.IsWhole) (arg17 : Memref sig .tc .vmem S1x256x256 .f32) (harg17 : arg17.IsWhole) (arg18 : Memref sig .tc .vmem S4096x16 .bf16) (harg18 : arg18.IsWhole) (arg19 : Memref sig .tc .vmem S4096x256 .bf16) (harg19 : arg19.IsWhole) (arg20 : Memref sig .tc .vmem S16x16 .f32) (harg20 : arg20.IsWhole) (hc0 : ¬cond0_0 i) (x0 : Vec F S1x4096x256 .f32) (x1 : Vec F S256x16 .f32) (x2 : Vec F S1x16 .f32) (x3 : Vec F S256x16 .f32) (x4 : Vec F S1x16 .f32) (x5 : Vec F S256x256 .f32) (x6 : Vec F S1x256 .f32) (x7 : Vec F S256x16 .f32) (x8 : Vec F S1x16 .f32) (x9 : Vec F S256x16 .f32) (x10 : Vec F S1x16 .f32) (x11 : Vec F S256x16 .f32) (x12 : Vec F S1x16 .f32) (x13 : Vec F S16x256 .f32) (x14 : Vec F S1x256 .f32) (xs0 : Vec F S4096x16 .bf16) (xs1 : Vec F S4096x256 .bf16) (xs2 : Vec F S16x16 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 xs1 xs2 = outOf (tile i x0) x1 x2 x11 x12 x13 x14 xs0 xs1 xs2 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 xs1 xs2)]
  unfold kernelRun0_B
  dsimp only
  sl_unfold_words
  rw [View.canon_unit_zero hz3]
  simp only [View.readAt_eq_ld, harg2.read_unread, harg3.read_unread, harg4.read_unread, harg13.read_unread, harg14.read_unread,
    harg15.read_unread, harg16.read_unread, harg18.read_unread, harg19.read_unread, harg20.read_unread,
    View.ld_unit_zero (S := S256x16) hz2, View.ld_unit_zero (S := S1x16) hz2, View.ld_unit_zero (S := S16x256) hz2,
    View.ld_unit_zero (S := S1x256) hz2, View.ld_unit_zero (S := S4096x16) hz2, View.ld_unit_zero (S := S4096x256) hz2,
    View.ld_unit_zero (S := S16x16) hz2]
  rfl

/-- The first row tile: the keys it stores. -/
theorem sout_A_0 (c : Dev nD) (i : grid0.Coords) (arg2 : Memref sig .tc .vmem S1x4096x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x16 .f32) (harg9 : arg9.IsWhole) (arg10 : Memref sig .tc .vmem S1x16 .f32) (harg10 : arg10.IsWhole) (arg11 : Memref sig .tc .vmem S256x16 .f32) (harg11 : arg11.IsWhole) (arg12 : Memref sig .tc .vmem S1x16 .f32) (harg12 : arg12.IsWhole) (arg13 : Memref sig .tc .vmem S256x16 .f32) (harg13 : arg13.IsWhole) (arg14 : Memref sig .tc .vmem S1x16 .f32) (harg14 : arg14.IsWhole) (arg15 : Memref sig .tc .vmem S16x256 .f32) (harg15 : arg15.IsWhole) (arg16 : Memref sig .tc .vmem S1x256 .f32) (harg16 : arg16.IsWhole) (arg17 : Memref sig .tc .vmem S1x256x256 .f32) (harg17 : arg17.IsWhole) (arg18 : Memref sig .tc .vmem S4096x16 .bf16) (harg18 : arg18.IsWhole) (arg19 : Memref sig .tc .vmem S4096x256 .bf16) (harg19 : arg19.IsWhole) (arg20 : Memref sig .tc .vmem S16x16 .f32) (harg20 : arg20.IsWhole) (hc0 : cond0_0 i) (x0 : Vec F S1x4096x256 .f32) (x1 : Vec F S256x16 .f32) (x2 : Vec F S1x16 .f32) (x3 : Vec F S256x16 .f32) (x4 : Vec F S1x16 .f32) (x5 : Vec F S256x256 .f32) (x6 : Vec F S1x256 .f32) (x7 : Vec F S256x16 .f32) (x8 : Vec F S1x16 .f32) (x9 : Vec F S256x16 .f32) (x10 : Vec F S1x16 .f32) (x11 : Vec F S256x16 .f32) (x12 : Vec F S1x16 .f32) (x13 : Vec F S16x256 .f32) (x14 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x16) hz2, View.ld_unit_zero (S := S1x16) hz2]

/-- The first row tile: the values it stores. -/
theorem sout_A_1 (c : Dev nD) (i : grid0.Coords) (arg2 : Memref sig .tc .vmem S1x4096x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x16 .f32) (harg9 : arg9.IsWhole) (arg10 : Memref sig .tc .vmem S1x16 .f32) (harg10 : arg10.IsWhole) (arg11 : Memref sig .tc .vmem S256x16 .f32) (harg11 : arg11.IsWhole) (arg12 : Memref sig .tc .vmem S1x16 .f32) (harg12 : arg12.IsWhole) (arg13 : Memref sig .tc .vmem S256x16 .f32) (harg13 : arg13.IsWhole) (arg14 : Memref sig .tc .vmem S1x16 .f32) (harg14 : arg14.IsWhole) (arg15 : Memref sig .tc .vmem S16x256 .f32) (harg15 : arg15.IsWhole) (arg16 : Memref sig .tc .vmem S1x256 .f32) (harg16 : arg16.IsWhole) (arg17 : Memref sig .tc .vmem S1x256x256 .f32) (harg17 : arg17.IsWhole) (arg18 : Memref sig .tc .vmem S4096x16 .bf16) (harg18 : arg18.IsWhole) (arg19 : Memref sig .tc .vmem S4096x256 .bf16) (harg19 : arg19.IsWhole) (arg20 : Memref sig .tc .vmem S16x16 .f32) (harg20 : arg20.IsWhole) (hc0 : cond0_0 i) (x0 : Vec F S1x4096x256 .f32) (x1 : Vec F S256x16 .f32) (x2 : Vec F S1x16 .f32) (x3 : Vec F S256x16 .f32) (x4 : Vec F S1x16 .f32) (x5 : Vec F S256x256 .f32) (x6 : Vec F S1x256 .f32) (x7 : Vec F S256x16 .f32) (x8 : Vec F S1x16 .f32) (x9 : Vec F S256x16 .f32) (x10 : Vec F S1x16 .f32) (x11 : Vec F S256x16 .f32) (x12 : Vec F S1x16 .f32) (x13 : Vec F S16x256 .f32) (x14 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg7.read_unread, harg8.read_unread,
    View.ld_unit_zero (S := S1x4096x256) hz3, View.ld_unit_zero (S := S256x256) hz2, View.ld_unit_zero (S := S1x256) hz2]

/-- The first row tile: the channel attention it stores. -/
theorem sout_A_2 (c : Dev nD) (i : grid0.Coords) (arg2 : Memref sig .tc .vmem S1x4096x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x16 .f32) (harg9 : arg9.IsWhole) (arg10 : Memref sig .tc .vmem S1x16 .f32) (harg10 : arg10.IsWhole) (arg11 : Memref sig .tc .vmem S256x16 .f32) (harg11 : arg11.IsWhole) (arg12 : Memref sig .tc .vmem S1x16 .f32) (harg12 : arg12.IsWhole) (arg13 : Memref sig .tc .vmem S256x16 .f32) (harg13 : arg13.IsWhole) (arg14 : Memref sig .tc .vmem S1x16 .f32) (harg14 : arg14.IsWhole) (arg15 : Memref sig .tc .vmem S16x256 .f32) (harg15 : arg15.IsWhole) (arg16 : Memref sig .tc .vmem S1x256 .f32) (harg16 : arg16.IsWhole) (arg17 : Memref sig .tc .vmem S1x256x256 .f32) (harg17 : arg17.IsWhole) (arg18 : Memref sig .tc .vmem S4096x16 .bf16) (harg18 : arg18.IsWhole) (arg19 : Memref sig .tc .vmem S4096x256 .bf16) (harg19 : arg19.IsWhole) (arg20 : Memref sig .tc .vmem S16x16 .f32) (harg20 : arg20.IsWhole) (hc0 : cond0_0 i) (x0 : Vec F S1x4096x256 .f32) (x1 : Vec F S256x16 .f32) (x2 : Vec F S1x16 .f32) (x3 : Vec F S256x16 .f32) (x4 : Vec F S1x16 .f32) (x5 : Vec F S256x256 .f32) (x6 : Vec F S1x256 .f32) (x7 : Vec F S256x16 .f32) (x8 : Vec F S1x16 .f32) (x9 : Vec F S256x16 .f32) (x10 : Vec F S1x16 .f32) (x11 : Vec F S256x16 .f32) (x12 : Vec F S1x16 .f32) (x13 : Vec F S16x256 .f32) (x14 : Vec F S1x256 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = chanOf x0 x7 x8 x9 x10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg9.read_unread, harg10.read_unread, harg11.read_unread, harg12.read_unread,
    View.ld_unit_zero (S := S1x4096x256) hz3, View.ld_unit_zero (S := S256x16) hz2, View.ld_unit_zero (S := S1x16) hz2]
  rfl

/-- The first row tile: its output rows, from the scratch it has just written. -/
theorem out_A (c : Dev nD) (i : grid0.Coords) (arg2 : Memref sig .tc .vmem S1x4096x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S256x16 .f32) (harg5 : arg5.IsWhole) (arg6 : Memref sig .tc .vmem S1x16 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x16 .f32) (harg9 : arg9.IsWhole) (arg10 : Memref sig .tc .vmem S1x16 .f32) (harg10 : arg10.IsWhole) (arg11 : Memref sig .tc .vmem S256x16 .f32) (harg11 : arg11.IsWhole) (arg12 : Memref sig .tc .vmem S1x16 .f32) (harg12 : arg12.IsWhole) (arg13 : Memref sig .tc .vmem S256x16 .f32) (harg13 : arg13.IsWhole) (arg14 : Memref sig .tc .vmem S1x16 .f32) (harg14 : arg14.IsWhole) (arg15 : Memref sig .tc .vmem S16x256 .f32) (harg15 : arg15.IsWhole) (arg16 : Memref sig .tc .vmem S1x256 .f32) (harg16 : arg16.IsWhole) (arg17 : Memref sig .tc .vmem S1x256x256 .f32) (harg17 : arg17.IsWhole) (arg18 : Memref sig .tc .vmem S4096x16 .bf16) (harg18 : arg18.IsWhole) (arg19 : Memref sig .tc .vmem S4096x256 .bf16) (harg19 : arg19.IsWhole) (arg20 : Memref sig .tc .vmem S16x16 .f32) (harg20 : arg20.IsWhole) (hc0 : cond0_0 i) (x0 : Vec F S1x4096x256 .f32) (x1 : Vec F S256x16 .f32) (x2 : Vec F S1x16 .f32) (x3 : Vec F S256x16 .f32) (x4 : Vec F S1x16 .f32) (x5 : Vec F S256x256 .f32) (x6 : Vec F S1x256 .f32) (x7 : Vec F S256x16 .f32) (x8 : Vec F S1x16 .f32) (x9 : Vec F S256x16 .f32) (x10 : Vec F S1x16 .f32) (x11 : Vec F S256x16 .f32) (x12 : Vec F S1x16 .f32) (x13 : Vec F S16x256 .f32) (x14 : Vec F S1x256 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
      = outOf (tile i x0) x1 x2 x11 x12 x13 x14 (k0_pay3 x0 x3 x4) (k0_pay4 x0 x5 x6) (chanOf x0 x7 x8 x9 x10) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14)]
  unfold kernelRun0_A
  dsimp only
  sl_unfold_words
  rw [View.canon_unit_zero hz3]
  simp only [View.readCov_unit_zero (S := S4096x16) _ hz2, View.readCov_unit_zero (S := S4096x256) _ hz2,
    View.readCov_unit_zero (S := S16x16) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread,
    View.ld_unit_zero (S := S1x4096x256) hz3, View.ld_unit_zero (S := S256x16) hz2, View.ld_unit_zero (S := S1x16) hz2,
    View.ld_unit_zero (S := S256x256) hz2, View.ld_unit_zero (S := S16x256) hz2, View.ld_unit_zero (S := S1x256) hz2]
  rfl

end Cert.KernelIdeal.KV

end
-- ==== Proof.KBlocks.lean ====
/-
  The blocks the pipeline hands the kernel body, read off the arrays the region finds.

  Every weight and bias window is its whole array at every grid point. The input window of grid point t = 16·b + q is
  batch element b of the [8, 4096, 256] array, whole; the body's row tile is rows 256·q … 256·q + 255 of it; and the
  output window of that point is rows 256·q … of batch element b of the output array.
-/
import proofs.«158731_j21148418965908_2_alg».proof.Proof.KPieces
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

theorem hN : cfg0.N = 128 := N_0

/-- The batch element of a grid point, and its row tile's number. -/
def bOf (t : Fin cfg0.N) : Fin 8 := ⟨t.val / 16, by have := t.isLt; have := hN; omega⟩
def qOf (t : Fin cfg0.N) : Fin 16 := ⟨t.val % 16, by omega⟩

/-- The input and output windows' block indices at each grid point, and the row tile's offset inside the input block. -/
theorem idx_facts : ∀ t : Fin cfg0.N,
    win0_0.index t (0 : Fin 3) = t.val / 16 ∧ win0_0.index t (1 : Fin 3) = 0 ∧ win0_0.index t (2 : Fin 3) = 0
    ∧ win0_15.index t (0 : Fin 3) = t.val / 16 ∧ win0_15.index t (1 : Fin 3) = t.val % 16 ∧ win0_15.index t (2 : Fin 3) = 0
    ∧ k0_off1 (grid0.coords t) = ![0, 256 * (t.val % 16), 0] :=
  (by decide +kernel : ∀ t : Fin grid0.N, _)

theorem idxw_1 : ∀ t : Fin cfg0.N, win0_1.index t (0 : Fin 2) = 0 ∧ win0_1.index t (1 : Fin 2) = 0 :=
  (by decide +kernel : ∀ t : Fin grid0.N, _)

/-- Window 1's block is its whole array. -/
theorem iblk_1 (c : Dev nD) (t : Fin cfg0.N) : (iblk m c 1 t : Vec F S256x16 .f32) = V m c main_arg1 := by
  obtain ⟨e0, e1⟩ := idxw_1 t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 256 + 1 * (y 0).val = (y 0).val; omega
  | ⟨1, _⟩ => show win0_1.index t (1 : Fin 2) * 16 + 1 * (y 1).val = (y 1).val; omega

theorem idxw_2 : ∀ t : Fin cfg0.N, win0_2.index t (0 : Fin 2) = 0 ∧ win0_2.index t (1 : Fin 2) = 0 :=
  (by decide +kernel : ∀ t : Fin grid0.N, _)

/-- Window 2's block is its whole array. -/
theorem iblk_2 (c : Dev nD) (t : Fin cfg0.N) : (iblk m c 2 t : Vec F S1x16 .f32) = V m c main_v1 := by
  obtain ⟨e0, e1⟩ := idxw_2 t
  funext y
  show V m c main_v1 (((cfg0.win 2).blk t).view.emb y) = V m c main_v1 y
  refine congrArg (V m c main_v1) ?_
  funext a; apply Fin.ext
  match a with
  | ⟨0, _⟩ => show win0_2.index t (0 : Fin 2) * 1 + 1 * (y 0).val = (y 0).val; omega
  | ⟨1, _⟩ => show win0_2.index t (1 : Fin 2) * 16 + 1 * (y 1).val = (y 1).val; omega

theorem idxw_3 : ∀ t : Fin cfg0.N, win0_3.index t (0 : Fin 2) = 0 ∧ win0_3.index t (1 : Fin 2) = 0 :=
  (by decide +kernel : ∀ t : Fin grid0.N, _)

/-- Window 3's block is its whole array. -/
theorem iblk_3 (c : Dev nD) (t : Fin cfg0.N) : (iblk m c 3 t : Vec F S256x16 .f32) = V m c main_arg3 := by
  obtain ⟨e0, e1⟩ := idxw_3 t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 256 + 1 * (y 0).val = (y 0).val; omega
  | ⟨1, _⟩ => show win0_3.index t (1 : Fin 2) * 16 + 1 * (y 1).val = (y 1).val; omega

theorem idxw_4 : ∀ t : Fin cfg0.N, win0_4.index t (0 : Fin 2) = 0 ∧ win0_4.index t (1 : Fin 2) = 0 :=
  (by decide +kernel : ∀ t : Fin grid0.N, _)

/-- Window 4's block is its whole array. -/
theorem iblk_4 (c : Dev nD) (t : Fin cfg0.N) : (iblk m c 4 t : Vec F S1x16 .f32) = V m c main_v2 := by
  obtain ⟨e0, e1⟩ := idxw_4 t
  funext y
  show V m c main_v2 (((cfg0.win 4).blk t).view.emb y) = V m c main_v2 y
  refine congrArg (V m c main_v2) ?_
  funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

theorem idxw_5 : ∀ t : Fin cfg0.N, win0_5.index t (0 : Fin 2) = 0 ∧ win0_5.index t (1 : Fin 2) = 0 :=
  (by decide +kernel : ∀ t : Fin grid0.N, _)

/-- Window 5's block is its whole array. -/
theorem iblk_5 (c : Dev nD) (t : Fin cfg0.N) : (iblk m c 5 t : Vec F S256x256 .f32) = V m c main_arg5 := by
  obtain ⟨e0, e1⟩ := idxw_5 t
  funext y
  show V m c main_arg5 (((cfg0.win 5).blk t).view.emb y) = V m c main_arg5 y
  refine congrArg (V m c main_arg5) ?_
  funext a; apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem idxw_6 : ∀ t : Fin cfg0.N, win0_6.index t (0 : Fin 2) = 0 ∧ win0_6.index t (1 : Fin 2) = 0 :=
  (by decide +kernel : ∀ t : Fin grid0.N, _)

/-- Window 6's block is its whole array. -/
theorem iblk_6 (c : Dev nD) (t : Fin cfg0.N) : (iblk m c 6 t : Vec F S1x256 .f32) = V m c main_v3 := by
  obtain ⟨e0, e1⟩ := idxw_6 t
  funext y
  show V m c main_v3 (((cfg0.win 6).blk t).view.emb y) = V m c main_v3 y
  refine congrArg (V m c main_v3) ?_
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem idxw_7 : ∀ t : Fin cfg0.N, win0_7.index t (0 : Fin 2) = 0 ∧ win0_7.index t (1 : Fin 2) = 0 :=
  (by decide +kernel : ∀ t : Fin grid0.N, _)

/-- Window 7's block is its whole array. -/
theorem iblk_7 (c : Dev nD) (t : Fin cfg0.N) : (iblk m c 7 t : Vec F S256x16 .f32) = V m c main_arg7 := by
  obtain ⟨e0, e1⟩ := idxw_7 t
  funext y
  show V m c main_arg7 (((cfg0.win 7).blk t).view.emb y) = V m c main_arg7 y
  refine congrArg (V m c main_arg7) ?_
  funext a; apply Fin.ext
  match a with
  | ⟨0, _⟩ => show win0_7.index t (0 : Fin 2) * 256 + 1 * (y 0).val = (y 0).val; omega
  | ⟨1, _⟩ => show win0_7.index t (1 : Fin 2) * 16 + 1 * (y 1).val = (y 1).val; omega

theorem idxw_8 : ∀ t : Fin cfg0.N, win0_8.index t (0 : Fin 2) = 0 ∧ win0_8.index t (1 : Fin 2) = 0 :=
  (by decide +kernel : ∀ t : Fin grid0.N, _)

/-- Window 8's block is its whole array. -/
theorem iblk_8 (c : Dev nD) (t : Fin cfg0.N) : (iblk m c 8 t : Vec F S1x16 .f32) = V m c main_v4 := by
  obtain ⟨e0, e1⟩ := idxw_8 t
  funext y
  show V m c main_v4 (((cfg0.win 8).blk t).view.emb y) = V m c main_v4 y
  refine congrArg (V m c main_v4) ?_
  funext a; apply Fin.ext
  match a with
  | ⟨0, _⟩ => show win0_8.index t (0 : Fin 2) * 1 + 1 * (y 0).val = (y 0).val; omega
  | ⟨1, _⟩ => show win0_8.index t (1 : Fin 2) * 16 + 1 * (y 1).val = (y 1).val; omega

theorem idxw_9 : ∀ t : Fin cfg0.N, win0_9.index t (0 : Fin 2) = 0 ∧ win0_9.index t (1 : Fin 2) = 0 :=
  (by decide +kernel : ∀ t : Fin grid0.N, _)

/-- Window 9's block is its whole array. -/
theorem iblk_9 (c : Dev nD) (t : Fin cfg0.N) : (iblk m c 9 t : Vec F S256x16 .f32) = V m c main_arg9 := by
  obtain ⟨e0, e1⟩ := idxw_9 t
  funext y
  show V m c main_arg9 (((cfg0.win 9).blk t).view.emb y) = V m c main_arg9 y
  refine congrArg (V m c main_arg9) ?_
  funext a; apply Fin.ext
  match a with
  | ⟨0, _⟩ => show win0_9.index t (0 : Fin 2) * 256 + 1 * (y 0).val = (y 0).val; omega
  | ⟨1, _⟩ => show win0_9.index t (1 : Fin 2) * 16 + 1 * (y 1).val = (y 1).val; omega

theorem idxw_10 : ∀ t : Fin cfg0.N, win0_10.index t (0 : Fin 2) = 0 ∧ win0_10.index t (1 : Fin 2) = 0 :=
  (by decide +kernel : ∀ t : Fin grid0.N, _)

/-- Window 10's block is its whole array. -/
theorem iblk_10 (c : Dev nD) (t : Fin cfg0.N) : (iblk m c 10 t : Vec F S1x16 .f32) = V m c main_v5 := by
  obtain ⟨e0, e1⟩ := idxw_10 t
  funext y
  show V m c main_v5 (((cfg0.win 10).blk t).view.emb y) = V m c main_v5 y
  refine congrArg (V m c main_v5) ?_
  funext a; apply Fin.ext
  match a with
  | ⟨0, _⟩ => show win0_10.index t (0 : Fin 2) * 1 + 1 * (y 0).val = (y 0).val; omega
  | ⟨1, _⟩ => show win0_10.index t (1 : Fin 2) * 16 + 1 * (y 1).val = (y 1).val; omega

theorem idxw_11 : ∀ t : Fin cfg0.N, win0_11.index t (0 : Fin 2) = 0 ∧ win0_11.index t (1 : Fin 2) = 0 :=
  (by decide +kernel : ∀ t : Fin grid0.N, _)

/-- Window 11's block is its whole array. -/
theorem iblk_11 (c : Dev nD) (t : Fin cfg0.N) : (iblk m c 11 t : Vec F S256x16 .f32) = V m c main_arg11 := by
  obtain ⟨e0, e1⟩ := idxw_11 t
  funext y
  show V m c main_arg11 (((cfg0.win 11).blk t).view.emb y) = V m c main_arg11 y
  refine congrArg (V m c main_arg11) ?_
  funext a; apply Fin.ext
  match a with
  | ⟨0, _⟩ => show win0_11.index t (0 : Fin 2) * 256 + 1 * (y 0).val = (y 0).val; omega
  | ⟨1, _⟩ => show win0_11.index t (1 : Fin 2) * 16 + 1 * (y 1).val = (y 1).val; omega

theorem idxw_12 : ∀ t : Fin cfg0.N, win0_12.index t (0 : Fin 2) = 0 ∧ win0_12.index t (1 : Fin 2) = 0 :=
  (by decide +kernel : ∀ t : Fin grid0.N, _)

/-- Window 12's block is its whole array. -/
theorem iblk_12 (c : Dev nD) (t : Fin cfg0.N) : (iblk m c 12 t : Vec F S1x16 .f32) = V m c main_v6 := by
  obtain ⟨e0, e1⟩ := idxw_12 t
  funext y
  show V m c main_v6 (((cfg0.win 12).blk t).view.emb y) = V m c main_v6 y
  refine congrArg (V m c main_v6) ?_
  funext a; apply Fin.ext
  match a with
  | ⟨0, _⟩ => show win0_12.index t (0 : Fin 2) * 1 + 1 * (y 0).val = (y 0).val; omega
  | ⟨1, _⟩ => show win0_12.index t (1 : Fin 2) * 16 + 1 * (y 1).val = (y 1).val; omega

theorem idxw_13 : ∀ t : Fin cfg0.N, win0_13.index t (0 : Fin 2) = 0 ∧ win0_13.index t (1 : Fin 2) = 0 :=
  (by decide +kernel : ∀ t : Fin grid0.N, _)

/-- Window 13's block is its whole array. -/
theorem iblk_13 (c : Dev nD) (t : Fin cfg0.N) : (iblk m c 13 t : Vec F S16x256 .f32) = V m c main_arg13 := by
  obtain ⟨e0, e1⟩ := idxw_13 t
  funext y
  show V m c main_arg13 (((cfg0.win 13).blk t).view.emb y) = V m c main_arg13 y
  refine congrArg (V m c main_arg13) ?_
  funext a; apply Fin.ext
  match a with
  | ⟨0, _⟩ => show win0_13.index t (0 : Fin 2) * 16 + 1 * (y 0).val = (y 0).val; omega
  | ⟨1, _⟩ => show win0_13.index t (1 : Fin 2) * 256 + 1 * (y 1).val = (y 1).val; omega

theorem idxw_14 : ∀ t : Fin cfg0.N, win0_14.index t (0 : Fin 2) = 0 ∧ win0_14.index t (1 : Fin 2) = 0 :=
  (by decide +kernel : ∀ t : Fin grid0.N, _)

/-- Window 14's block is its whole array. -/
theorem iblk_14 (c : Dev nD) (t : Fin cfg0.N) : (iblk m c 14 t : Vec F S1x256 .f32) = V m c main_v7 := by
  obtain ⟨e0, e1⟩ := idxw_14 t
  funext y
  show V m c main_v7 (((cfg0.win 14).blk t).view.emb y) = V m c main_v7 y
  refine congrArg (V m c main_v7) ?_
  funext a; apply Fin.ext
  match a with
  | ⟨0, _⟩ => show win0_14.index t (0 : Fin 2) * 1 + 1 * (y 0).val = (y 0).val; omega
  | ⟨1, _⟩ => show win0_14.index t (1 : Fin 2) * 256 + 1 * (y 1).val = (y 1).val; omega

/-- Batch element `b` of the [8, 4096, 256] array as the input window's block. -/
def X0 (c : Dev nD) (b : Fin 8) : Vec F S1x4096x256 .f32 :=
  fun y => V m c main_v0 (ix3 b (⟨(y 1).val, (y 1).isLt⟩ : Fin 4096) (⟨(y 2).val, (y 2).isLt⟩ : Fin 256))

/-- The input window's block at a grid point is its batch element. -/
theorem iblk_0 (c : Dev nD) (t : Fin cfg0.N) : (iblk m c 0 t : Vec F S1x4096x256 .f32) = X0 m c (bOf t) := by
  obtain ⟨e0, e1, e2, -⟩ := idx_facts t
  funext y
  show V m c main_v0 (((cfg0.win 0).blk t).view.emb y) = V m c main_v0 _
  refine congrArg (V m c main_v0) ?_
  funext a; apply Fin.ext
  match a with
  | ⟨0, _⟩ => show win0_0.index t (0 : Fin 3) * 1 + 1 * (y 0).val = t.val / 16; have : (y 0).val < 1 := (y 0).isLt; omega
  | ⟨1, _⟩ => show win0_0.index t (1 : Fin 3) * 4096 + 1 * (y 1).val = (y 1).val; omega
  | ⟨2, _⟩ => show win0_0.index t (2 : Fin 3) * 256 + 1 * (y 2).val = (y 2).val; omega

/-- A row of the point's row tile is row 256·q + r of the block. -/
theorem tile_apply (t : Fin cfg0.N) (x0 : Vec F S1x4096x256 .f32) (r k : Fin 256) :
    tile (grid0.coords t) x0 (ix3 (0 : Fin 1) r k)
      = x0 (ix3 (0 : Fin 1) (⟨256 * (t.val % 16) + r.val, by have := r.isLt; omega⟩ : Fin 4096) k) := by
  obtain ⟨-, -, -, -, -, -, e⟩ := idx_facts t
  unfold tile
  show x0 ((Rect.unit (s := S1x4096x256) (k0_off1 (grid0.coords t)) S1x256x256.size (k0_off1_inb (grid0.coords t))).idx _) = _
  refine congrArg x0 ?_
  funext a; apply Fin.ext
  match a with
  | ⟨0, _⟩ => show k0_off1 (grid0.coords t) 0 + 1 * 0 = 0; rw [e]; rfl
  | ⟨1, _⟩ => show k0_off1 (grid0.coords t) 1 + 1 * r.val = 256 * (t.val % 16) + r.val; rw [e]; show 256 * (t.val % 16) + 1 * r.val = _; omega
  | ⟨2, _⟩ => show k0_off1 (grid0.coords t) 2 + 1 * k.val = k.val; rw [e]; show 0 + 1 * k.val = _; omega

end Cert.KernelIdeal.KV

end
-- ==== Proof.KInv.lean ====
/-
  What the scratch buffers and the output's staging buffer hold after each grid point.

  After the point t = 16·b + q the three scratch buffers hold the keys, the values and the channel attention of batch
  element b — they are written at q = 0 and left alone until the next batch element's first point — and the output's
  staging buffer holds the output rows of row tile q computed from them. By induction on the point.
-/
import proofs.«158731_j21148418965908_2_alg».proof.Proof.KBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- The keys, the values and the channel attention of batch element `b`. -/
def Ks (c : Dev nD) (b : Fin 8) : Vec F S4096x16 .bf16 := k0_pay3 (X0 m c b) (V m c main_arg3) (V m c main_v2)
def Vs (c : Dev nD) (b : Fin 8) : Vec F S4096x256 .bf16 := k0_pay4 (X0 m c b) (V m c main_arg5) (V m c main_v3)
def Cs (c : Dev nD) (b : Fin 8) : Vec F S16x16 .f32 :=
  chanOf (X0 m c b) (V m c main_arg7) (V m c main_v4) (V m c main_arg9) (V m c main_v5)

/-- The output rows of grid point `t`'s row tile. -/
def Os (c : Dev nD) (t : Fin cfg0.N) : Vec F S1x256x256 .f32 :=
  outOf (tile (grid0.coords t) (X0 m c (bOf t))) (V m c main_arg1) (V m c main_v1) (V m c main_arg11) (V m c main_v6)
    (V m c main_arg13) (V m c main_v7) (Ks m c (bOf t)) (Vs m c (bOf t)) (Cs m c (bOf t))

theorem caseA0 (c : Dev nD) (t : Fin cfg0.N) (h0 : t.val % 16 = 0) :
    (outsAt0 m c t.val t.isLt).1 = Os m c t := by
  rw [outsAt0_A m c t h0]
  dsimp only
  refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).trans ?_
  rw [iblk_0 m c t, iblk_1 m c t, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t]
  rfl

theorem caseA1 (c : Dev nD) (t : Fin cfg0.N) (h0 : t.val % 16 = 0) :
    (outsAt0 m c t.val t.isLt).2.1 = Ks m c (bOf t) := by
  rw [outsAt0_A m c t h0]
  dsimp only
  refine (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).trans ?_
  rw [iblk_0 m c t, iblk_3 m c t, iblk_4 m c t]
  rfl

theorem caseA2 (c : Dev nD) (t : Fin cfg0.N) (h0 : t.val % 16 = 0) :
    (outsAt0 m c t.val t.isLt).2.2.1 = Vs m c (bOf t) := by
  rw [outsAt0_A m c t h0]
  dsimp only
  refine (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).trans ?_
  rw [iblk_0 m c t, iblk_5 m c t, iblk_6 m c t]
  rfl

theorem caseA3 (c : Dev nD) (t : Fin cfg0.N) (h0 : t.val % 16 = 0) :
    (outsAt0 m c t.val t.isLt).2.2.2 = Cs m c (bOf t) := by
  rw [outsAt0_A m c t h0]
  dsimp only
  refine (sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).trans ?_
  rw [iblk_0 m c t, iblk_7 m c t, iblk_8 m c t, iblk_9 m c t, iblk_10 m c t]
  rfl

/-- At the first row tile of a batch element. -/
theorem caseA (c : Dev nD) (t : Fin cfg0.N) (h0 : t.val % 16 = 0) :
    outsAt0 m c t.val t.isLt = (Os m c t, Ks m c (bOf t), Vs m c (bOf t), Cs m c (bOf t)) :=
  Prod.ext (caseA0 m c t h0) (Prod.ext (caseA1 m c t h0) (Prod.ext (caseA2 m c t h0) (caseA3 m c t h0)))

theorem caseB0 (c : Dev nD) (t : Fin cfg0.N) (h0 : ¬t.val % 16 = 0) (o : Vec F S1x256x256 .f32)
    (hp : outsAt0 m c (t.val - 1) (Nat.lt_of_le_of_lt (Nat.sub_le _ _) t.isLt) = (o, Ks m c (bOf t), Vs m c (bOf t), Cs m c (bOf t))) :
    (outsAt0 m c t.val t.isLt).1 = Os m c t := by
  rw [outsAt0_B m c t h0, hp]
  dsimp only
  refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (Ks m c (bOf t)) (Vs m c (bOf t)) (Cs m c (bOf t))).trans ?_
  rw [iblk_0 m c t, iblk_1 m c t, iblk_2 m c t, iblk_11 m c t, iblk_12 m c t, iblk_13 m c t, iblk_14 m c t]
  rfl

theorem caseB1 (c : Dev nD) (t : Fin cfg0.N) (h0 : ¬t.val % 16 = 0) (o : Vec F S1x256x256 .f32)
    (hp : outsAt0 m c (t.val - 1) (Nat.lt_of_le_of_lt (Nat.sub_le _ _) t.isLt) = (o, Ks m c (bOf t), Vs m c (bOf t), Cs m c (bOf t))) :
    (outsAt0 m c t.val t.isLt).2 = (Ks m c (bOf t), Vs m c (bOf t), Cs m c (bOf t)) := by
  rw [outsAt0_B m c t h0, hp]
  rfl

/-- At a later row tile, from what the point before left. -/
theorem caseB (c : Dev nD) (t : Fin cfg0.N) (h0 : ¬t.val % 16 = 0) (o : Vec F S1x256x256 .f32)
    (hp : outsAt0 m c (t.val - 1) (Nat.lt_of_le_of_lt (Nat.sub_le _ _) t.isLt) = (o, Ks m c (bOf t), Vs m c (bOf t), Cs m c (bOf t))) :
    outsAt0 m c t.val t.isLt = (Os m c t, Ks m c (bOf t), Vs m c (bOf t), Cs m c (bOf t)) :=
  Prod.ext (caseB0 m c t h0 o hp) (caseB1 m c t h0 o hp)

/-- After every grid point. -/
theorem outsAt_eq (c : Dev nD) (n : ℕ) : ∀ h : n < cfg0.N,
    outsAt0 m c n h = (Os m c ⟨n, h⟩, Ks m c (bOf ⟨n, h⟩), Vs m c (bOf ⟨n, h⟩), Cs m c (bOf ⟨n, h⟩)) := by
  induction n using Nat.strong_induction_on with
  | _ n ih =>
    intro h
    by_cases h0 : n % 16 = 0
    · exact caseA m c ⟨n, h⟩ h0
    · have hlt : n - 1 < cfg0.N := Nat.lt_of_le_of_lt (Nat.sub_le _ _) h
      have hb : bOf ⟨n - 1, hlt⟩ = bOf ⟨n, h⟩ := Fin.ext (by show (n - 1) / 16 = n / 16; omega)
      have hprev := ih (n - 1) (by omega) hlt
      rw [hb] at hprev
      exact caseB m c ⟨n, h⟩ h0 _ hprev

end Cert.KernelIdeal.KV

end
-- ==== Proof.KFlush.lean ====
/-
  The region's output array after the run: the point t = 16·b + q writes rows 256·q … 256·q + 255 of batch element b, the
  128 points' blocks tile the array, so the array ends as ONE function of its index — at (b, n, k) the output row n % 256
  of row tile n / 256 of batch element b.
-/
import proofs.«158731_j21148418965908_2_alg».proof.Proof.KInv

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- The grid point that writes row `n` of batch element `b`. -/
def tOf (b : Fin 8) (n : Fin 4096) : Fin cfg0.N :=
  ⟨16 * b.val + n.val / 256, by have := hN; have := b.isLt; have := n.isLt; omega⟩

/-- The output array as one function of its index. -/
def Oarr (c : Dev nD) : S8x4096x256.Idx → Elt F .f32 := fun i =>
  Os m c (tOf (⟨(i 0).val, (i 0).isLt⟩ : Fin 8) (⟨(i 1).val, (i 1).isLt⟩ : Fin 4096))
    (ix3 (0 : Fin 1) (⟨(i 1).val % 256, by omega⟩ : Fin 256) (⟨(i 2).val, (i 2).isLt⟩ : Fin 256))

/-- At an index inside grid point `t`'s block it is that point's output row. -/
theorem Oarr_at (c : Dev nD) (t : Fin cfg0.N) (i : S8x4096x256.Idx) (r k : Fin 256) (h0 : (i 0).val = t.val / 16)
    (h1 : (i 1).val = 256 * (t.val % 16) + r.val) (h2 : (i 2).val = k.val) :
    Oarr m c i = Os m c t (ix3 (0 : Fin 1) r k) := by
  unfold Oarr
  have ht : tOf (⟨(i 0).val, (i 0).isLt⟩ : Fin 8) (⟨(i 1).val, (i 1).isLt⟩ : Fin 4096) = t :=
    Fin.ext (by show 16 * (i 0).val + (i 1).val / 256 = t.val; have := r.isLt; omega)
  have hr : (⟨(i 1).val % 256, by omega⟩ : Fin 256) = r := Fin.ext (by show (i 1).val % 256 = r.val; have := r.isLt; omega)
  have hk : (⟨(i 2).val, (i 2).isLt⟩ : Fin 256) = k := Fin.ext h2
  rw [ht, hr, hk]

/-- What grid point `t` writes back is its block of that function. -/
theorem flushed_eq (c : Dev nD) (t : Fin cfg0.N) :
    (dats m 0 c).flushed 15 t = ((cfg0.win 15).blk t).view.read (Elt F) (Oarr m c) := by
  show (cfg0.win 15).cut (grid0.coords t) ((dats m 0 c).after 15 t) = _
  rw [after0_15, outsAt_eq m c t.val t.isLt]
  obtain ⟨-, -, -, e0, e1, e2, -⟩ := idx_facts t
  funext y
  obtain ⟨y0, r, k, rfl⟩ : ∃ (y0 : Fin 1) (r k : Fin 256), y = ix3 y0 r k := ⟨y 0, y 1, y 2, eq_ix3 y⟩
  obtain rfl : y0 = 0 := Subsingleton.elim _ _
  show Os m c t (ix3 (0 : Fin 1) r k) = Oarr m c (((cfg0.win 15).blk t).view.emb (ix3 (0 : Fin 1) r k))
  refine (Oarr_at m c t _ r k ?_ ?_ ?_).symm
  · show win0_15.index t (0 : Fin 3) * 1 + 1 * 0 = t.val / 16; omega
  · show win0_15.index t (1 : Fin 3) * 256 + 1 * r.val = 256 * (t.val % 16) + r.val; omega
  · show win0_15.index t (2 : Fin 3) * 256 + 1 * k.val = k.val; omega

/-- An index is in point `t`'s block iff each coordinate is in the block's range on its axis. -/
theorem mem_blk (t : Fin cfg0.N) (i : S8x4096x256.Idx) :
    i ∈ ((cfg0.win 15).blk t).view.set ↔ ∀ a : Fin 3, win0_15.index t a * S1x256x256.size a ≤ (i a).val
      ∧ (i a).val < win0_15.index t a * S1x256x256.size a + S1x256x256.size a := by
  show i ∈ ((View.whole main_v8).slice (win0_15.rect t)).set ↔ _
  rw [View.set_slice_whole, Rect.mem_set_unit]
  exact Iff.rfl

/-- Every index of the output array is in the block of the point that writes its row tile. -/
theorem cover (i : S8x4096x256.Idx) :
    ∃ t : Fin cfg0.N, (cfg0.win 15).flush t = true ∧ i ∈ ((cfg0.win 15).blk t).view.set := by
  have h0 : (i 0).val < 8 := (i 0).isLt
  have h1 : (i 1).val < 4096 := (i 1).isLt
  have h2 : (i 2).val < 256 := (i 2).isLt
  refine ⟨tOf (⟨(i 0).val, h0⟩ : Fin 8) (⟨(i 1).val, h1⟩ : Fin 4096), flush0_15 _, ?_⟩
  rw [mem_blk]
  obtain ⟨-, -, -, e0, e1, e2, -⟩ := idx_facts (tOf (⟨(i 0).val, h0⟩ : Fin 8) (⟨(i 1).val, h1⟩ : Fin 4096))
  have htv : (tOf (⟨(i 0).val, h0⟩ : Fin 8) (⟨(i 1).val, h1⟩ : Fin 4096)).val = 16 * (i 0).val + (i 1).val / 256 := rfl
  rw [htv] at e0 e1
  intro a
  match a with
  | ⟨0, _⟩ =>
    show win0_15.index _ (0 : Fin 3) * 1 ≤ (i 0).val ∧ (i 0).val < win0_15.index _ (0 : Fin 3) * 1 + 1
    omega
  | ⟨1, _⟩ =>
    show win0_15.index _ (1 : Fin 3) * 256 ≤ (i 1).val ∧ (i 1).val < win0_15.index _ (1 : Fin 3) * 256 + 256
    omega
  | ⟨2, _⟩ =>
    show win0_15.index _ (2 : Fin 3) * 256 ≤ (i 2).val ∧ (i 2).val < win0_15.index _ (2 : Fin 3) * 256 + 256
    omega

/-- The output array after the run. -/
theorem final (c : Dev nD) : (dats m 0 c).arrAt 15 cfg0.N = Oarr m c :=
  (dats m 0 c).arrAt_eq_of_cover 15 (Oarr m c) (fun t _ => flushed_eq m c t) (cover)

end Cert.KernelIdeal.KV

end
-- ==== Proof.KRun.lean ====
/-
  The kernel's program, run: the host reshapes the region's output array back to [8, 64, 64, 256], so the result is that
  reshape of the one function the output array ends as; the arguments are unchanged.
-/
import proofs.«158731_j21148418965908_2_alg».proof.Proof.KFlush
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- The result buffer after the host's last reshape. -/
theorem tail_eq (c : Dev nD) :
    Pipeline.afterTail₀ cfgs (dats m) 0 (V0 m) [hostOps1] c main_v9
      = shapeCast S8x64x64x256 (Oarr m c) shapeCasts_S8x4096x256_S8x64x64x256 := by
  unfold Pipeline.afterTail₀
  show StableHlo.after hostOps1 _ (Proc.devRef .tc main_v9) = _
  after_results
  refine congrArg (fun v => shapeCast S8x64x64x256 v shapeCasts_S8x4096x256_S8x64x64x256) ?_
  exact (Pipeline.withArrays_arr spec0 launch0.win.arr_inj c _ _ 15).trans (final m c)

/-- Every weakly fair execution terminates with the result at the reshape of the output array's function and the
    arguments unchanged. -/
theorem run : θ_run defs (onTc (τ := τ) (main (F := F))) ⟨m, fun _ => 0, ρ⟩ fun r => ∀ c : Dev nD,
      r.2.mem ((c.tc : Thread nD τ).loc main_v9) = shapeCast S8x64x64x256 (Oarr m c) shapeCasts_S8x4096x256_S8x64x64x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).2 main_v9 (Pipeline.mem_restRefs_of main_v9 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c))),
      (((h c).2 main_arg14 (Pipeline.mem_restRefs_of main_arg14 (by decide) (by decide))).trans (W_main_arg14 m (dats m) c))⟩)
    (run_main m ρ)

end Cert.KernelIdeal.KV

end
-- ==== Proof.KHost.lean ====
/-
  The arrays the region finds, in terms of the program's arguments: the host reshapes the input to [8, 4096, 256]
  (row 64·h + w of a batch element is spatial position (h, w)) and each bias to one row; the weights are untouched.
-/
import proofs.«158731_j21148418965908_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]
variable (m : (ℓ : Loc nD τ sig) → Buf (Elt F) ℓ)

/-- The region's input array is the host's reshape of the first argument. -/
theorem V_v0 (c : Dev nD) : (V m c main_v0 : S8x4096x256.Idx → Elt F .f32)
    = shapeCast S8x4096x256 (m ((c : Thread nD τ).loc main_arg0)) shapeCasts_S8x64x64x256_S8x4096x256 := by
  show StableHlo.after hostOps0 (fun b => m (c, b)) (Proc.devRef .tc main_v0) = _
  after_results; rfl

/-- Row `n` of batch element `b` is spatial position (n / 64, n % 64). -/
theorem V_v0_apply (c : Dev nD) (b : Fin 8) (n : Fin 4096) (k : Fin 256) :
    V m c main_v0 (ix3 b n k)
      = m ((c : Thread nD τ).loc main_arg0) (ix4 b (⟨n.val / 64, by have := n.isLt; omega⟩ : Fin 64) (⟨n.val % 64, by omega⟩ : Fin 64) k) := by
  rw [V_v0]
  exact shapeCast_apply _ shapeCasts_S8x64x64x256_S8x4096x256 _ _ (by
    rewrite [Shape.rowMajor_val_four, Shape.rowMajor_val_three]
    have := n.isLt
    show ((b.val * 64 + n.val / 64) * 64 + n.val % 64) * 256 + k.val = (b.val * 4096 + n.val) * 256 + k.val
    omega)

/-- `main_v1` is the host's reshape of `main_arg2` to one row. -/
theorem V_v1 (c : Dev nD) : (V m c main_v1 : S1x16.Idx → Elt F .f32)
    = shapeCast S1x16 (m ((c : Thread nD τ).loc main_arg2)) shapeCasts_S16_S1x16 := by
  show StableHlo.after hostOps0 (fun b => m (c, b)) (Proc.devRef .tc main_v1) = _
  after_results; rfl
theorem V_v1_apply (c : Dev nD) (j : Fin 16) :
    V m c main_v1 (ix2 (0 : Fin 1) j) = m ((c : Thread nD τ).loc main_arg2) (ix1 j) := by
  rw [V_v1]
  exact shapeCast_apply _ shapeCasts_S16_S1x16 _ _ (by
    rewrite [Shape.rowMajor_val_one, Shape.rowMajor_val_two]
    show j.val = 0 * 16 + j.val
    omega)

/-- `main_v2` is the host's reshape of `main_arg4` to one row. -/
theorem V_v2 (c : Dev nD) : (V m c main_v2 : S1x16.Idx → Elt F .f32)
    = shapeCast S1x16 (m ((c : Thread nD τ).loc main_arg4)) shapeCasts_S16_S1x16 := by
  show StableHlo.after hostOps0 (fun b => m (c, b)) (Proc.devRef .tc main_v2) = _
  after_results; rfl
theorem V_v2_apply (c : Dev nD) (j : Fin 16) :
    V m c main_v2 (ix2 (0 : Fin 1) j) = m ((c : Thread nD τ).loc main_arg4) (ix1 j) := by
  rw [V_v2]
  exact shapeCast_apply _ shapeCasts_S16_S1x16 _ _ (by
    rewrite [Shape.rowMajor_val_one, Shape.rowMajor_val_two]
    show j.val = 0 * 16 + j.val
    omega)

/-- `main_v3` is the host's reshape of `main_arg6` to one row. -/
theorem V_v3 (c : Dev nD) : (V m c main_v3 : S1x256.Idx → Elt F .f32)
    = shapeCast S1x256 (m ((c : Thread nD τ).loc main_arg6)) shapeCasts_S256_S1x256 := by
  show StableHlo.after hostOps0 (fun b => m (c, b)) (Proc.devRef .tc main_v3) = _
  after_results; rfl
theorem V_v3_apply (c : Dev nD) (j : Fin 256) :
    V m c main_v3 (ix2 (0 : Fin 1) j) = m ((c : Thread nD τ).loc main_arg6) (ix1 j) := by
  rw [V_v3]
  exact shapeCast_apply _ shapeCasts_S256_S1x256 _ _ (by
    rewrite [Shape.rowMajor_val_one, Shape.rowMajor_val_two]
    show j.val = 0 * 256 + j.val
    omega)

/-- `main_v4` is the host's reshape of `main_arg8` to one row. -/
theorem V_v4 (c : Dev nD) : (V m c main_v4 : S1x16.Idx → Elt F .f32)
    = shapeCast S1x16 (m ((c : Thread nD τ).loc main_arg8)) shapeCasts_S16_S1x16 := by
  show StableHlo.after hostOps0 (fun b => m (c, b)) (Proc.devRef .tc main_v4) = _
  after_results; rfl
theorem V_v4_apply (c : Dev nD) (j : Fin 16) :
    V m c main_v4 (ix2 (0 : Fin 1) j) = m ((c : Thread nD τ).loc main_arg8) (ix1 j) := by
  rw [V_v4]
  exact shapeCast_apply _ shapeCasts_S16_S1x16 _ _ (by
    rewrite [Shape.rowMajor_val_one, Shape.rowMajor_val_two]
    show j.val = 0 * 16 + j.val
    omega)

/-- `main_v5` is the host's reshape of `main_arg10` to one row. -/
theorem V_v5 (c : Dev nD) : (V m c main_v5 : S1x16.Idx → Elt F .f32)
    = shapeCast S1x16 (m ((c : Thread nD τ).loc main_arg10)) shapeCasts_S16_S1x16 := by
  show StableHlo.after hostOps0 (fun b => m (c, b)) (Proc.devRef .tc main_v5) = _
  after_results; rfl
theorem V_v5_apply (c : Dev nD) (j : Fin 16) :
    V m c main_v5 (ix2 (0 : Fin 1) j) = m ((c : Thread nD τ).loc main_arg10) (ix1 j) := by
  rw [V_v5]
  exact shapeCast_apply _ shapeCasts_S16_S1x16 _ _ (by
    rewrite [Shape.rowMajor_val_one, Shape.rowMajor_val_two]
    show j.val = 0 * 16 + j.val
    omega)

/-- `main_v6` is the host's reshape of `main_arg12` to one row. -/
theorem V_v6 (c : Dev nD) : (V m c main_v6 : S1x16.Idx → Elt F .f32)
    = shapeCast S1x16 (m ((c : Thread nD τ).loc main_arg12)) shapeCasts_S16_S1x16 := by
  show StableHlo.after hostOps0 (fun b => m (c, b)) (Proc.devRef .tc main_v6) = _
  after_results; rfl
theorem V_v6_apply (c : Dev nD) (j : Fin 16) :
    V m c main_v6 (ix2 (0 : Fin 1) j) = m ((c : Thread nD τ).loc main_arg12) (ix1 j) := by
  rw [V_v6]
  exact shapeCast_apply _ shapeCasts_S16_S1x16 _ _ (by
    rewrite [Shape.rowMajor_val_one, Shape.rowMajor_val_two]
    show j.val = 0 * 16 + j.val
    omega)

/-- `main_v7` is the host's reshape of `main_arg14` to one row. -/
theorem V_v7 (c : Dev nD) : (V m c main_v7 : S1x256.Idx → Elt F .f32)
    = shapeCast S1x256 (m ((c : Thread nD τ).loc main_arg14)) shapeCasts_S256_S1x256 := by
  show StableHlo.after hostOps0 (fun b => m (c, b)) (Proc.devRef .tc main_v7) = _
  after_results; rfl
theorem V_v7_apply (c : Dev nD) (j : Fin 256) :
    V m c main_v7 (ix2 (0 : Fin 1) j) = m ((c : Thread nD τ).loc main_arg14) (ix1 j) := by
  rw [V_v7]
  exact shapeCast_apply _ shapeCasts_S256_S1x256 _ _ (by
    rewrite [Shape.rowMajor_val_one, Shape.rowMajor_val_two]
    show j.val = 0 * 256 + j.val
    omega)

end Cert.KernelIdeal.KV

end
-- ==== Proof.Spec.lean ====
/-
  The mathematics both programs compute, stated once over the extended reals, index by index.

  For one batch element with rows `X n` (n < 4096, 256 channels each):
    * `proj`      — a row times a weight matrix plus a bias: the 1×1 convolutions q, k, v, cq, ck, cv and the output projection;
    * `smax`      — a softmax along one axis: exp (s − max s) divided by the sum of those exponentials, the maximum taken
                     as a fold of `max` started from the value `ninf`;
    * `chanAttn`  — the 16×16 channel attention: softmax over d of (Σₙ ck[n,c]·cq[n,d])·qs;
    * `outRow`    — one output row: x + Σₘ softmaxₘ((q·kₘ)·qs)·vₘ + ((cv·chanAttnᵀ)·Wp + bp), as a function of the row itself,
                     of the whole batch element's keys and values, and of its channel attention;
    * `outAt`     — `outRow` with the keys, values and channel attention computed from the same rows.
  `G` is the whole result over the [8, 64, 64, 256] array: spatial position (h, w) is row 64·h + w of its batch element.
-/
import Idealize.ShloMosaic.PureOps.Ideal
import Idealize.ShloMosaic.Lib.ValueIdx

noncomputable section

namespace Cert.Spec

open Idealize.ShloMosaic Idealize.ShloMosaic.ValueIdx

/-- One entry of an affine image of a row: `(Σₖ xₖ · W[k, c]) + b[c]`. -/
def proj {D : Nat} (xr : Fin 256 → EReal) (W : Fin 256 → Fin D → EReal) (b : Fin D → EReal) (c : Fin D) : EReal :=
  (∑ k : Fin 256, xr k * W k c) + b c

/-- One entry of a softmax of the scores `s`: the maximum is the fold of `max` over the axis started from `ninf`. -/
def smax {K : Nat} (ninf : EReal) (s : Fin K → EReal) (j : Fin K) : EReal :=
  Ideal.div (Ideal.exp (s j - Finset.univ.fold max ninf s))
    (∑ j' : Fin K, Ideal.exp (s j' - Finset.univ.fold max ninf s))

/-- The channel attention of a batch element: the softmax over `d` of `(Σₙ ck[n, c] · cq[n, d]) · qs`. -/
def chanAttn (X : Fin 4096 → Fin 256 → EReal) (Wck : Fin 256 → Fin 16 → EReal) (bck : Fin 16 → EReal)
    (Wcq : Fin 256 → Fin 16 → EReal) (bcq : Fin 16 → EReal) (qs ninf : EReal) (c d : Fin 16) : EReal :=
  smax ninf (fun d' => (∑ n : Fin 4096, proj (X n) Wck bck c * proj (X n) Wcq bcq d') * qs) d

/-- One output row from the row `xr`, the batch element's keys `Kf`, values `Vf` and channel attention `CAf`. -/
def outRow (xr : Fin 256 → EReal) (Kf : Fin 4096 → Fin 16 → EReal) (Vf : Fin 4096 → Fin 256 → EReal)
    (CAf : Fin 16 → Fin 16 → EReal) (Wq : Fin 256 → Fin 16 → EReal) (bq : Fin 16 → EReal)
    (Wcv : Fin 256 → Fin 16 → EReal) (bcv : Fin 16 → EReal) (Wp : Fin 16 → Fin 256 → EReal) (bp : Fin 256 → EReal)
    (qs ninf : EReal) (c : Fin 256) : EReal :=
  (xr c + ∑ m : Fin 4096, smax ninf (fun m' => (∑ c' : Fin 16, proj xr Wq bq c' * Kf m' c') * qs) m * Vf m c)
    + ((∑ d : Fin 16, (∑ d' : Fin 16, proj xr Wcv bcv d' * CAf d d') * Wp d c) + bp c)

/-- Row `n` of the result of one batch element with rows `X`. -/
def outAt (X : Fin 4096 → Fin 256 → EReal)
    (Wq : Fin 256 → Fin 16 → EReal) (bq : Fin 16 → EReal) (Wk : Fin 256 → Fin 16 → EReal) (bk : Fin 16 → EReal)
    (Wv : Fin 256 → Fin 256 → EReal) (bv : Fin 256 → EReal) (Wcq : Fin 256 → Fin 16 → EReal) (bcq : Fin 16 → EReal)
    (Wck : Fin 256 → Fin 16 → EReal) (bck : Fin 16 → EReal) (Wcv : Fin 256 → Fin 16 → EReal) (bcv : Fin 16 → EReal)
    (Wp : Fin 16 → Fin 256 → EReal) (bp : Fin 256 → EReal) (qs ninf : EReal) (n : Fin 4096) (c : Fin 256) : EReal :=
  outRow (X n) (fun m c' => proj (X m) Wk bk c') (fun m c' => proj (X m) Wv bv c')
    (chanAttn X Wck bck Wcq bcq qs ninf) Wq bq Wcv bcv Wp bp qs ninf c

/-- A rank-2 array by its two coordinates, a rank-1 array by its coordinate, a one-row array by its column. -/
def cur2 {a b : Nat} (W : (⟨2, ![a, b]⟩ : Shape).Idx → EReal) (i : Fin a) (j : Fin b) : EReal := W (ix2 i j)
def cur1 {a : Nat} (v : (⟨1, ![a]⟩ : Shape).Idx → EReal) (i : Fin a) : EReal := v (ix1 i)
def row0 {a : Nat} (v : (⟨2, ![1, a]⟩ : Shape).Idx → EReal) (i : Fin a) : EReal := v (ix2 (0 : Fin 1) i)

/-- The rows of batch element `b` of an [8, 64, 64, 256] array: row `n` is spatial position (n / 64, n % 64). -/
def rows (x : (⟨4, ![8, 64, 64, 256]⟩ : Shape).Idx → EReal) (b : Fin 8) (n : Fin 4096) (k : Fin 256) : EReal :=
  x (ix4 b (⟨n.val / 64, by have := n.isLt; omega⟩ : Fin 64) (⟨n.val % 64, by omega⟩ : Fin 64) k)

/-- The rows of batch element `b` of an [8, 4096, 256] array. -/
def rows3 (x : (⟨3, ![8, 4096, 256]⟩ : Shape).Idx → EReal) (b : Fin 8) (n : Fin 4096) (k : Fin 256) : EReal :=
  x (ix3 b n k)

/-- The result at batch element `b`, spatial position (h, w), channel `c`. -/
def Gat (x : (⟨4, ![8, 64, 64, 256]⟩ : Shape).Idx → EReal)
    (Wq : (⟨2, ![256, 16]⟩ : Shape).Idx → EReal) (bq : (⟨1, ![16]⟩ : Shape).Idx → EReal)
    (Wk : (⟨2, ![256, 16]⟩ : Shape).Idx → EReal) (bk : (⟨1, ![16]⟩ : Shape).Idx → EReal)
    (Wv : (⟨2, ![256, 256]⟩ : Shape).Idx → EReal) (bv : (⟨1, ![256]⟩ : Shape).Idx → EReal)
    (Wcq : (⟨2, ![256, 16]⟩ : Shape).Idx → EReal) (bcq : (⟨1, ![16]⟩ : Shape).Idx → EReal)
    (Wck : (⟨2, ![256, 16]⟩ : Shape).Idx → EReal) (bck : (⟨1, ![16]⟩ : Shape).Idx → EReal)
    (Wcv : (⟨2, ![256, 16]⟩ : Shape).Idx → EReal) (bcv : (⟨1, ![16]⟩ : Shape).Idx → EReal)
    (Wp : (⟨2, ![16, 256]⟩ : Shape).Idx → EReal) (bp : (⟨1, ![256]⟩ : Shape).Idx → EReal)
    (qs ninf : EReal) (b : Fin 8) (h w : Fin 64) (c : Fin 256) : EReal :=
  outAt (rows x b) (cur2 Wq) (cur1 bq) (cur2 Wk) (cur1 bk) (cur2 Wv) (cur1 bv) (cur2 Wcq) (cur1 bcq)
    (cur2 Wck) (cur1 bck) (cur2 Wcv) (cur1 bcv) (cur2 Wp) (cur1 bp) qs ninf
    (⟨64 * h.val + w.val, by have := h.isLt; have := w.isLt; omega⟩ : Fin 4096) c

/-- The whole result array. -/
def G (x : (⟨4, ![8, 64, 64, 256]⟩ : Shape).Idx → EReal)
    (Wq : (⟨2, ![256, 16]⟩ : Shape).Idx → EReal) (bq : (⟨1, ![16]⟩ : Shape).Idx → EReal)
    (Wk : (⟨2, ![256, 16]⟩ : Shape).Idx → EReal) (bk : (⟨1, ![16]⟩ : Shape).Idx → EReal)
    (Wv : (⟨2, ![256, 256]⟩ : Shape).Idx → EReal) (bv : (⟨1, ![256]⟩ : Shape).Idx → EReal)
    (Wcq : (⟨2, ![256, 16]⟩ : Shape).Idx → EReal) (bcq : (⟨1, ![16]⟩ : Shape).Idx → EReal)
    (Wck : (⟨2, ![256, 16]⟩ : Shape).Idx → EReal) (bck : (⟨1, ![16]⟩ : Shape).Idx → EReal)
    (Wcv : (⟨2, ![256, 16]⟩ : Shape).Idx → EReal) (bcv : (⟨1, ![16]⟩ : Shape).Idx → EReal)
    (Wp : (⟨2, ![16, 256]⟩ : Shape).Idx → EReal) (bp : (⟨1, ![256]⟩ : Shape).Idx → EReal)
    (qs ninf : EReal) : (⟨4, ![8, 64, 64, 256]⟩ : Shape).Idx → EReal :=
  fun i => Gat x Wq bq Wk bk Wv bv Wcq bcq Wck bck Wcv bcv Wp bp qs ninf
    (⟨(i 0).val, (i 0).isLt⟩ : Fin 8) (⟨(i 1).val, (i 1).isLt⟩ : Fin 64) (⟨(i 2).val, (i 2).isLt⟩ : Fin 64)
    (⟨(i 3).val, (i 3).isLt⟩ : Fin 256)

/-- At an index given by its coordinates the result is `Gat` of them. -/
theorem G_ix4 (x : (⟨4, ![8, 64, 64, 256]⟩ : Shape).Idx → EReal)
    (Wq : (⟨2, ![256, 16]⟩ : Shape).Idx → EReal) (bq : (⟨1, ![16]⟩ : Shape).Idx → EReal)
    (Wk : (⟨2, ![256, 16]⟩ : Shape).Idx → EReal) (bk : (⟨1, ![16]⟩ : Shape).Idx → EReal)
    (Wv : (⟨2, ![256, 256]⟩ : Shape).Idx → EReal) (bv : (⟨1, ![256]⟩ : Shape).Idx → EReal)
    (Wcq : (⟨2, ![256, 16]⟩ : Shape).Idx → EReal) (bcq : (⟨1, ![16]⟩ : Shape).Idx → EReal)
    (Wck : (⟨2, ![256, 16]⟩ : Shape).Idx → EReal) (bck : (⟨1, ![16]⟩ : Shape).Idx → EReal)
    (Wcv : (⟨2, ![256, 16]⟩ : Shape).Idx → EReal) (bcv : (⟨1, ![16]⟩ : Shape).Idx → EReal)
    (Wp : (⟨2, ![16, 256]⟩ : Shape).Idx → EReal) (bp : (⟨1, ![256]⟩ : Shape).Idx → EReal)
    (qs ninf : EReal) (b : Fin 8) (h w : Fin 64) (c : Fin 256) :
    G x Wq bq Wk bk Wv bv Wcq bcq Wck bck Wcv bcv Wp bp qs ninf (ix4 b h w c)
      = Gat x Wq bq Wk bk Wv bv Wcq bcq Wck bck Wcv bcv Wp bp qs ninf b h w c := rfl

end Cert.Spec

end
-- ==== Proof.PayLib.lean ====
/-
  The kernel's vector operations read at an index over the extended reals: each of the eight matrix products as a sum over
  the contracted coordinate, the column forms of a vector, a row's sum and maximum, a bias row, a scaled array, and a row
  softmax.
-/
import proofs.«158731_j21148418965908_2_alg».proof.Proof.Gen.KernelIdeal.Skeleton
import proofs.«158731_j21148418965908_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelPay

open Cert.KernelIdeal Cert.KernelIdeal.Gen Idealize.ShloMosaic Idealize.ShloMosaic.ValueIdx
theorem mm_4096x256_256x16_lf (i : S4096x16.Idx) (q : dot_S4096x256_S256x16_S4096x16_1_0_0_1_n_n.contr.Idx) :
    (dot_S4096x256_S256x16_S4096x16_1_0_0_1_n_n.lhsIdx i q 0).val = (i 0).val := by
  unfold DotDims.lhsIdx
  rw [dif_neg (show ¬(0 : Fin S4096x256.rank) ∈ dot_S4096x256_S256x16_S4096x16_1_0_0_1_n_n.lhsBatch by decide), dif_pos (show (0 : Fin S4096x256.rank) ∈ dot_S4096x256_S256x16_S4096x16_1_0_0_1_n_n.lhsNonContracting by decide)]
  rfl
theorem mm_4096x256_256x16_rf (i : S4096x16.Idx) (q : dot_S4096x256_S256x16_S4096x16_1_0_0_1_n_n.contr.Idx) :
    (dot_S4096x256_S256x16_S4096x16_1_0_0_1_n_n.rhsIdx i q 1).val = (i 1).val := by
  unfold DotDims.rhsIdx
  rw [dif_neg (show ¬(1 : Fin S256x16.rank) ∈ dot_S4096x256_S256x16_S4096x16_1_0_0_1_n_n.rhsBatch by decide), dif_pos (show (1 : Fin S256x16.rank) ∈ dot_S4096x256_S256x16_S4096x16_1_0_0_1_n_n.rhsNonContracting by decide)]
  rfl
/-- The product of a [4096,256] and a [256,16] array contracting axis 1 of the first with axis 0 of the second, from a zero
    accumulator, at (i, j): the sum over the contracted coordinate of the products of the operands' elements. -/
theorem mm_4096x256_256x16 (l : FVec Ideal S4096x256 .bf16) (r : FVec Ideal S256x16 .bf16) (i : Fin 4096) (j : Fin 16) :
    matmul dot_S4096x256_S256x16_S4096x16_1_0_0_1_n_n none l r (constant (F := Ideal) S4096x16 .f32 0x00000000#32) (ix2 i j)
      = ∑ k : Fin 256, l (ix2 i k) * r (ix2 k j) := by
  refine (Ideal.matmul_constant_zero_apply dot_S4096x256_S256x16_S4096x16_1_0_0_1_n_n none l r (ix2 i j)).trans ?_
  rw [← Equiv.sum_comp (ValueIdx.contrEquiv1 dot_S4096x256_S256x16_S4096x16_1_0_0_1_n_n 256 rfl rfl).symm]
  refine Finset.sum_congr rfl fun k _ => ?_
  have hk := ValueIdx.contrEquiv1_symm_val dot_S4096x256_S256x16_S4096x16_1_0_0_1_n_n 256 rfl rfl k
  have el : dot_S4096x256_S256x16_S4096x16_1_0_0_1_n_n.lhsIdx (ix2 i j) ((ValueIdx.contrEquiv1 dot_S4096x256_S256x16_S4096x16_1_0_0_1_n_n 256 rfl rfl).symm k) = ix2 i k := funext fun a => Fin.ext (by
    match a with
    | ⟨0, _⟩ => exact mm_4096x256_256x16_lf _ _
    | ⟨1, _⟩ => exact (dot_S4096x256_S256x16_S4096x16_1_0_0_1_n_n.lhsIdx_val_of_single rfl _ _).trans hk)
  have er : dot_S4096x256_S256x16_S4096x16_1_0_0_1_n_n.rhsIdx (ix2 i j) ((ValueIdx.contrEquiv1 dot_S4096x256_S256x16_S4096x16_1_0_0_1_n_n 256 rfl rfl).symm k) = ix2 k j := funext fun a => Fin.ext (by
    match a with
    | ⟨0, _⟩ => exact (dot_S4096x256_S256x16_S4096x16_1_0_0_1_n_n.rhsIdx_val_of_single rfl _ _).trans hk
    | ⟨1, _⟩ => exact mm_4096x256_256x16_rf _ _)
  rw [el, er]

theorem mm_4096x256_256x256_lf (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mm_4096x256_256x256_rf (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- The product of a [4096,256] and a [256,256] array contracting axis 1 of the first with axis 0 of the second, from a zero
    accumulator, at (i, j): the sum over the contracted coordinate of the products of the operands' elements. -/
theorem mm_4096x256_256x256 (l : FVec Ideal S4096x256 .bf16) (r : FVec Ideal S256x256 .bf16) (i : Fin 4096) (j : Fin 256) :
    matmul dot_S4096x256_S256x256_S4096x256_1_0_0_1_n_n none l r (constant (F := Ideal) S4096x256 .f32 0x00000000#32) (ix2 i j)
      = ∑ k : Fin 256, l (ix2 i k) * r (ix2 k j) := by
  refine (Ideal.matmul_constant_zero_apply dot_S4096x256_S256x256_S4096x256_1_0_0_1_n_n none l r (ix2 i j)).trans ?_
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 i j) ((ValueIdx.contrEquiv1 dot_S4096x256_S256x256_S4096x256_1_0_0_1_n_n 256 rfl rfl).symm k) = ix2 i k := funext fun a => Fin.ext (by
    match a with
    | ⟨0, _⟩ => exact mm_4096x256_256x256_lf _ _
    | ⟨1, _⟩ => exact (dot_S4096x256_S256x256_S4096x256_1_0_0_1_n_n.lhsIdx_val_of_single rfl _ _).trans hk)
  have er : dot_S4096x256_S256x256_S4096x256_1_0_0_1_n_n.rhsIdx (ix2 i j) ((ValueIdx.contrEquiv1 dot_S4096x256_S256x256_S4096x256_1_0_0_1_n_n 256 rfl rfl).symm k) = ix2 k j := funext fun a => Fin.ext (by
    match a with
    | ⟨0, _⟩ => exact (dot_S4096x256_S256x256_S4096x256_1_0_0_1_n_n.rhsIdx_val_of_single rfl _ _).trans hk
    | ⟨1, _⟩ => exact mm_4096x256_256x256_rf _ _)
  rw [el, er]

theorem mm_4096x16_4096x16_lf (i : S16x16.Idx) (q : dot_S4096x16_S4096x16_S16x16_0_0_1_1_n_n.contr.Idx) :
    (dot_S4096x16_S4096x16_S16x16_0_0_1_1_n_n.lhsIdx i q 1).val = (i 0).val := by
  unfold DotDims.lhsIdx
  rw [dif_neg (show ¬(1 : Fin S4096x16.rank) ∈ dot_S4096x16_S4096x16_S16x16_0_0_1_1_n_n.lhsBatch by decide), dif_pos (show (1 : Fin S4096x16.rank) ∈ dot_S4096x16_S4096x16_S16x16_0_0_1_1_n_n.lhsNonContracting by decide)]
  rfl
theorem mm_4096x16_4096x16_rf (i : S16x16.Idx) (q : dot_S4096x16_S4096x16_S16x16_0_0_1_1_n_n.contr.Idx) :
    (dot_S4096x16_S4096x16_S16x16_0_0_1_1_n_n.rhsIdx i q 1).val = (i 1).val := by
  unfold DotDims.rhsIdx
  rw [dif_neg (show ¬(1 : Fin S4096x16.rank) ∈ dot_S4096x16_S4096x16_S16x16_0_0_1_1_n_n.rhsBatch by decide), dif_pos (show (1 : Fin S4096x16.rank) ∈ dot_S4096x16_S4096x16_S16x16_0_0_1_1_n_n.rhsNonContracting by decide)]
  rfl
/-- The product of a [4096,16] and a [4096,16] array contracting axis 0 of the first with axis 0 of the second, from a zero
    accumulator, at (i, j): the sum over the contracted coordinate of the products of the operands' elements. -/
theorem mm_4096x16_4096x16 (l : FVec Ideal S4096x16 .bf16) (r : FVec Ideal S4096x16 .bf16) (i : Fin 16) (j : Fin 16) :
    matmul dot_S4096x16_S4096x16_S16x16_0_0_1_1_n_n none l r (constant (F := Ideal) S16x16 .f32 0x00000000#32) (ix2 i j)
      = ∑ k : Fin 4096, l (ix2 k i) * r (ix2 k j) := by
  refine (Ideal.matmul_constant_zero_apply dot_S4096x16_S4096x16_S16x16_0_0_1_1_n_n none l r (ix2 i j)).trans ?_
  rw [← Equiv.sum_comp (ValueIdx.contrEquiv1 dot_S4096x16_S4096x16_S16x16_0_0_1_1_n_n 4096 rfl rfl).symm]
  refine Finset.sum_congr rfl fun k _ => ?_
  have hk := ValueIdx.contrEquiv1_symm_val dot_S4096x16_S4096x16_S16x16_0_0_1_1_n_n 4096 rfl rfl k
  have el : dot_S4096x16_S4096x16_S16x16_0_0_1_1_n_n.lhsIdx (ix2 i j) ((ValueIdx.contrEquiv1 dot_S4096x16_S4096x16_S16x16_0_0_1_1_n_n 4096 rfl rfl).symm k) = ix2 k i := funext fun a => Fin.ext (by
    match a with
    | ⟨0, _⟩ => exact (dot_S4096x16_S4096x16_S16x16_0_0_1_1_n_n.lhsIdx_val_of_single rfl _ _).trans hk
    | ⟨1, _⟩ => exact mm_4096x16_4096x16_lf _ _)
  have er : dot_S4096x16_S4096x16_S16x16_0_0_1_1_n_n.rhsIdx (ix2 i j) ((ValueIdx.contrEquiv1 dot_S4096x16_S4096x16_S16x16_0_0_1_1_n_n 4096 rfl rfl).symm k) = ix2 k j := funext fun a => Fin.ext (by
    match a with
    | ⟨0, _⟩ => exact (dot_S4096x16_S4096x16_S16x16_0_0_1_1_n_n.rhsIdx_val_of_single rfl _ _).trans hk
    | ⟨1, _⟩ => exact mm_4096x16_4096x16_rf _ _)
  rw [el, er]

theorem mm_256x256_256x16_lf (i : S256x16.Idx) (q : dot_S256x256_S256x16_S256x16_1_0_0_1_n_n.contr.Idx) :
    (dot_S256x256_S256x16_S256x16_1_0_0_1_n_n.lhsIdx i q 0).val = (i 0).val := by
  unfold DotDims.lhsIdx
  rw [dif_neg (show ¬(0 : Fin S256x256.rank) ∈ dot_S256x256_S256x16_S256x16_1_0_0_1_n_n.lhsBatch by decide), dif_pos (show (0 : Fin S256x256.rank) ∈ dot_S256x256_S256x16_S256x16_1_0_0_1_n_n.lhsNonContracting by decide)]
  rfl
theorem mm_256x256_256x16_rf (i : S256x16.Idx) (q : dot_S256x256_S256x16_S256x16_1_0_0_1_n_n.contr.Idx) :
    (dot_S256x256_S256x16_S256x16_1_0_0_1_n_n.rhsIdx i q 1).val = (i 1).val := by
  unfold DotDims.rhsIdx
  rw [dif_neg (show ¬(1 : Fin S256x16.rank) ∈ dot_S256x256_S256x16_S256x16_1_0_0_1_n_n.rhsBatch by decide), dif_pos (show (1 : Fin S256x16.rank) ∈ dot_S256x256_S256x16_S256x16_1_0_0_1_n_n.rhsNonContracting by decide)]
  rfl
/-- The product of a [256,256] and a [256,16] array contracting axis 1 of the first with axis 0 of the second, from a zero
    accumulator, at (i, j): the sum over the contracted coordinate of the products of the operands' elements. -/
theorem mm_256x256_256x16 (l : FVec Ideal S256x256 .bf16) (r : FVec Ideal S256x16 .bf16) (i : Fin 256) (j : Fin 16) :
    matmul dot_S256x256_S256x16_S256x16_1_0_0_1_n_n none l r (constant (F := Ideal) S256x16 .f32 0x00000000#32) (ix2 i j)
      = ∑ k : Fin 256, l (ix2 i k) * r (ix2 k j) := by
  refine (Ideal.matmul_constant_zero_apply dot_S256x256_S256x16_S256x16_1_0_0_1_n_n none l r (ix2 i j)).trans ?_
  rw [← Equiv.sum_comp (ValueIdx.contrEquiv1 dot_S256x256_S256x16_S256x16_1_0_0_1_n_n 256 rfl rfl).symm]
  refine Finset.sum_congr rfl fun k _ => ?_
  have hk := ValueIdx.contrEquiv1_symm_val dot_S256x256_S256x16_S256x16_1_0_0_1_n_n 256 rfl rfl k
  have el : dot_S256x256_S256x16_S256x16_1_0_0_1_n_n.lhsIdx (ix2 i j) ((ValueIdx.contrEquiv1 dot_S256x256_S256x16_S256x16_1_0_0_1_n_n 256 rfl rfl).symm k) = ix2 i k := funext fun a => Fin.ext (by
    match a with
    | ⟨0, _⟩ => exact mm_256x256_256x16_lf _ _
    | ⟨1, _⟩ => exact (dot_S256x256_S256x16_S256x16_1_0_0_1_n_n.lhsIdx_val_of_single rfl _ _).trans hk)
  have er : dot_S256x256_S256x16_S256x16_1_0_0_1_n_n.rhsIdx (ix2 i j) ((ValueIdx.contrEquiv1 dot_S256x256_S256x16_S256x16_1_0_0_1_n_n 256 rfl rfl).symm k) = ix2 k j := funext fun a => Fin.ext (by
    match a with
    | ⟨0, _⟩ => exact (dot_S256x256_S256x16_S256x16_1_0_0_1_n_n.rhsIdx_val_of_single rfl _ _).trans hk
    | ⟨1, _⟩ => exact mm_256x256_256x16_rf _ _)
  rw [el, er]

theorem mm_256x16_4096x16_lf (i : S256x4096.Idx) (q : dot_S256x16_S4096x16_S256x4096_1_1_0_0_n_n.contr.Idx) :
    (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem mm_256x16_4096x16_rf (i : S256x4096.Idx) (q : dot_S256x16_S4096x16_S256x4096_1_1_0_0_n_n.contr.Idx) :
    (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
/-- The product of a [256,16] and a [4096,16] array contracting axis 1 of the first with axis 1 of the second, from a zero
    accumulator, at (i, j): the sum over the contracted coordinate of the products of the operands' elements. -/
theorem mm_256x16_4096x16 (l : FVec Ideal S256x16 .bf16) (r : FVec Ideal S4096x16 .bf16) (i : Fin 256) (j : Fin 4096) :
    matmul dot_S256x16_S4096x16_S256x4096_1_1_0_0_n_n none l r (constant (F := Ideal) S256x4096 .f32 0x00000000#32) (ix2 i j)
      = ∑ k : Fin 16, l (ix2 i k) * r (ix2 j k) := by
  refine (Ideal.matmul_constant_zero_apply dot_S256x16_S4096x16_S256x4096_1_1_0_0_n_n none l r (ix2 i j)).trans ?_
  rw [← Equiv.sum_comp (ValueIdx.contrEquiv1 dot_S256x16_S4096x16_S256x4096_1_1_0_0_n_n 16 rfl rfl).symm]
  refine Finset.sum_congr rfl fun k _ => ?_
  have hk := ValueIdx.contrEquiv1_symm_val dot_S256x16_S4096x16_S256x4096_1_1_0_0_n_n 16 rfl rfl k
  have el : dot_S256x16_S4096x16_S256x4096_1_1_0_0_n_n.lhsIdx (ix2 i j) ((ValueIdx.contrEquiv1 dot_S256x16_S4096x16_S256x4096_1_1_0_0_n_n 16 rfl rfl).symm k) = ix2 i k := funext fun a => Fin.ext (by
    match a with
    | ⟨0, _⟩ => exact mm_256x16_4096x16_lf _ _
    | ⟨1, _⟩ => exact (dot_S256x16_S4096x16_S256x4096_1_1_0_0_n_n.lhsIdx_val_of_single rfl _ _).trans hk)
  have er : dot_S256x16_S4096x16_S256x4096_1_1_0_0_n_n.rhsIdx (ix2 i j) ((ValueIdx.contrEquiv1 dot_S256x16_S4096x16_S256x4096_1_1_0_0_n_n 16 rfl rfl).symm k) = ix2 j k := funext fun a => Fin.ext (by
    match a with
    | ⟨0, _⟩ => exact mm_256x16_4096x16_rf _ _
    | ⟨1, _⟩ => exact (dot_S256x16_S4096x16_S256x4096_1_1_0_0_n_n.rhsIdx_val_of_single rfl _ _).trans hk)
  rw [el, er]

theorem mm_256x4096_4096x256_lf (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem mm_256x4096_4096x256_rf (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl
/-- The product of a [256,4096] and a [4096,256] array contracting axis 1 of the first with axis 0 of the second, from a zero
    accumulator, at (i, j): the sum over the contracted coordinate of the products of the operands' elements. -/
theorem mm_256x4096_4096x256 (l : FVec Ideal S256x4096 .bf16) (r : FVec Ideal S4096x256 .bf16) (i : Fin 256) (j : Fin 256) :
    matmul dot_S256x4096_S4096x256_S256x256_1_0_0_1_n_n none l r (constant (F := Ideal) S256x256 .f32 0x00000000#32) (ix2 i j)
      = ∑ k : Fin 4096, l (ix2 i k) * r (ix2 k j) := by
  refine (Ideal.matmul_constant_zero_apply dot_S256x4096_S4096x256_S256x256_1_0_0_1_n_n none l r (ix2 i j)).trans ?_
  rw [← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 i j) ((ValueIdx.contrEquiv1 dot_S256x4096_S4096x256_S256x256_1_0_0_1_n_n 4096 rfl rfl).symm k) = ix2 i k := funext fun a => Fin.ext (by
    match a with
    | ⟨0, _⟩ => exact mm_256x4096_4096x256_lf _ _
    | ⟨1, _⟩ => exact (dot_S256x4096_S4096x256_S256x256_1_0_0_1_n_n.lhsIdx_val_of_single rfl _ _).trans hk)
  have er : dot_S256x4096_S4096x256_S256x256_1_0_0_1_n_n.rhsIdx (ix2 i j) ((ValueIdx.contrEquiv1 dot_S256x4096_S4096x256_S256x256_1_0_0_1_n_n 4096 rfl rfl).symm k) = ix2 k j := funext fun a => Fin.ext (by
    match a with
    | ⟨0, _⟩ => exact (dot_S256x4096_S4096x256_S256x256_1_0_0_1_n_n.rhsIdx_val_of_single rfl _ _).trans hk
    | ⟨1, _⟩ => exact mm_256x4096_4096x256_rf _ _)
  rw [el, er]

theorem mm_256x16_16x16_lf (i : S256x16.Idx) (q : dot_S256x16_S16x16_S256x16_1_1_0_0_n_n.contr.Idx) :
    (dot_S256x16_S16x16_S256x16_1_1_0_0_n_n.lhsIdx i q 0).val = (i 0).val := by
  unfold DotDims.lhsIdx
  rw [dif_neg (show ¬(0 : Fin S256x16.rank) ∈ dot_S256x16_S16x16_S256x16_1_1_0_0_n_n.lhsBatch by decide), dif_pos (show (0 : Fin S256x16.rank) ∈ dot_S256x16_S16x16_S256x16_1_1_0_0_n_n.lhsNonContracting by decide)]
  rfl
theorem mm_256x16_16x16_rf (i : S256x16.Idx) (q : dot_S256x16_S16x16_S256x16_1_1_0_0_n_n.contr.Idx) :
    (dot_S256x16_S16x16_S256x16_1_1_0_0_n_n.rhsIdx i q 0).val = (i 1).val := by
  unfold DotDims.rhsIdx
  rw [dif_neg (show ¬(0 : Fin S16x16.rank) ∈ dot_S256x16_S16x16_S256x16_1_1_0_0_n_n.rhsBatch by decide), dif_pos (show (0 : Fin S16x16.rank) ∈ dot_S256x16_S16x16_S256x16_1_1_0_0_n_n.rhsNonContracting by decide)]
  rfl
/-- The product of a [256,16] and a [16,16] array contracting axis 1 of the first with axis 1 of the second, from a zero
    accumulator, at (i, j): the sum over the contracted coordinate of the products of the operands' elements. -/
theorem mm_256x16_16x16 (l : FVec Ideal S256x16 .bf16) (r : FVec Ideal S16x16 .bf16) (i : Fin 256) (j : Fin 16) :
    matmul dot_S256x16_S16x16_S256x16_1_1_0_0_n_n none l r (constant (F := Ideal) S256x16 .f32 0x00000000#32) (ix2 i j)
      = ∑ k : Fin 16, l (ix2 i k) * r (ix2 j k) := by
  refine (Ideal.matmul_constant_zero_apply dot_S256x16_S16x16_S256x16_1_1_0_0_n_n none l r (ix2 i j)).trans ?_
  rw [← Equiv.sum_comp (ValueIdx.contrEquiv1 dot_S256x16_S16x16_S256x16_1_1_0_0_n_n 16 rfl rfl).symm]
  refine Finset.sum_congr rfl fun k _ => ?_
  have hk := ValueIdx.contrEquiv1_symm_val dot_S256x16_S16x16_S256x16_1_1_0_0_n_n 16 rfl rfl k
  have el : dot_S256x16_S16x16_S256x16_1_1_0_0_n_n.lhsIdx (ix2 i j) ((ValueIdx.contrEquiv1 dot_S256x16_S16x16_S256x16_1_1_0_0_n_n 16 rfl rfl).symm k) = ix2 i k := funext fun a => Fin.ext (by
    match a with
    | ⟨0, _⟩ => exact mm_256x16_16x16_lf _ _
    | ⟨1, _⟩ => exact (dot_S256x16_S16x16_S256x16_1_1_0_0_n_n.lhsIdx_val_of_single rfl _ _).trans hk)
  have er : dot_S256x16_S16x16_S256x16_1_1_0_0_n_n.rhsIdx (ix2 i j) ((ValueIdx.contrEquiv1 dot_S256x16_S16x16_S256x16_1_1_0_0_n_n 16 rfl rfl).symm k) = ix2 j k := funext fun a => Fin.ext (by
    match a with
    | ⟨0, _⟩ => exact mm_256x16_16x16_rf _ _
    | ⟨1, _⟩ => exact (dot_S256x16_S16x16_S256x16_1_1_0_0_n_n.rhsIdx_val_of_single rfl _ _).trans hk)
  rw [el, er]

theorem mm_256x16_16x256_lf (i : S256x256.Idx) (q : dot_S256x16_S16x256_S256x256_1_0_0_1_n_n.contr.Idx) :
    (dot_S256x16_S16x256_S256x256_1_0_0_1_n_n.lhsIdx i q 0).val = (i 0).val := by
  unfold DotDims.lhsIdx
  rw [dif_neg (show ¬(0 : Fin S256x16.rank) ∈ dot_S256x16_S16x256_S256x256_1_0_0_1_n_n.lhsBatch by decide), dif_pos (show (0 : Fin S256x16.rank) ∈ dot_S256x16_S16x256_S256x256_1_0_0_1_n_n.lhsNonContracting by decide)]
  rfl
theorem mm_256x16_16x256_rf (i : S256x256.Idx) (q : dot_S256x16_S16x256_S256x256_1_0_0_1_n_n.contr.Idx) :
    (dot_S256x16_S16x256_S256x256_1_0_0_1_n_n.rhsIdx i q 1).val = (i 1).val := by
  unfold DotDims.rhsIdx
  rw [dif_neg (show ¬(1 : Fin S16x256.rank) ∈ dot_S256x16_S16x256_S256x256_1_0_0_1_n_n.rhsBatch by decide), dif_pos (show (1 : Fin S16x256.rank) ∈ dot_S256x16_S16x256_S256x256_1_0_0_1_n_n.rhsNonContracting by decide)]
  rfl
/-- The product of a [256,16] and a [16,256] array contracting axis 1 of the first with axis 0 of the second, from a zero
    accumulator, at (i, j): the sum over the contracted coordinate of the products of the operands' elements. -/
theorem mm_256x16_16x256 (l : FVec Ideal S256x16 .bf16) (r : FVec Ideal S16x256 .bf16) (i : Fin 256) (j : Fin 256) :
    matmul dot_S256x16_S16x256_S256x256_1_0_0_1_n_n none l r (constant (F := Ideal) S256x256 .f32 0x00000000#32) (ix2 i j)
      = ∑ k : Fin 16, l (ix2 i k) * r (ix2 k j) := by
  refine (Ideal.matmul_constant_zero_apply dot_S256x16_S16x256_S256x256_1_0_0_1_n_n none l r (ix2 i j)).trans ?_
  rw [← Equiv.sum_comp (ValueIdx.contrEquiv1 dot_S256x16_S16x256_S256x256_1_0_0_1_n_n 16 rfl rfl).symm]
  refine Finset.sum_congr rfl fun k _ => ?_
  have hk := ValueIdx.contrEquiv1_symm_val dot_S256x16_S16x256_S256x256_1_0_0_1_n_n 16 rfl rfl k
  have el : dot_S256x16_S16x256_S256x256_1_0_0_1_n_n.lhsIdx (ix2 i j) ((ValueIdx.contrEquiv1 dot_S256x16_S16x256_S256x256_1_0_0_1_n_n 16 rfl rfl).symm k) = ix2 i k := funext fun a => Fin.ext (by
    match a with
    | ⟨0, _⟩ => exact mm_256x16_16x256_lf _ _
    | ⟨1, _⟩ => exact (dot_S256x16_S16x256_S256x256_1_0_0_1_n_n.lhsIdx_val_of_single rfl _ _).trans hk)
  have er : dot_S256x16_S16x256_S256x256_1_0_0_1_n_n.rhsIdx (ix2 i j) ((ValueIdx.contrEquiv1 dot_S256x16_S16x256_S256x256_1_0_0_1_n_n 16 rfl rfl).symm k) = ix2 k j := funext fun a => Fin.ext (by
    match a with
    | ⟨0, _⟩ => exact (dot_S256x16_S16x256_S256x256_1_0_0_1_n_n.rhsIdx_val_of_single rfl _ _).trans hk
    | ⟨1, _⟩ => exact mm_256x16_16x256_rf _ _)
  rw [el, er]

/-! ## Column forms of a vector: [a] read as [a, 1], and [a, 1] read over [a, b] -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## A row's sum and a row's maximum -/

/-- The sum over axis 1 of an `[a, b]` array, from the zero word, at row `r`: the sum of the row's elements. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ m : Fin b, src (ix2 r m) := by
  refine (Ideal.multiReduction_add_single src _ h hφ hacc (ix1 r)).trans ?_
  refine Finset.sum_congr rfl fun m _ => congrArg src (funext fun c => ?_)
  match c with
  | ⟨0, _⟩ => rfl
  | ⟨1, _⟩ => rfl

/-- The maximum over axis 1 of an `[a, b]` array, from the word of −∞, at row `r`: the fold of `max` over the row's
    elements started from that word's value. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun m => src (ix2 r m)) := by
  refine (Ideal.multiReduction_maximumf_single src _ h hφ hacc (ix1 r)).trans ?_
  refine congrArg (Finset.fold max (Ideal.ofBits .f32 0xFF800000#32) · (Finset.univ : Finset (Fin b))) (funext fun m => congrArg src (funext fun c => ?_))
  match c with
  | ⟨0, _⟩ => rfl
  | ⟨1, _⟩ => rfl

/-! ## A bias row added, a row's maximum spread over the row, and the division by a row's sum -/

/-- A `[1, b]` bias row added to every row of an `[a, b]` array, at `(i, j)`. -/
theorem addBias_apply {a b : ℕ} (x : FVec Ideal ⟨2, ![a, b]⟩ .f32) (v : FVec Ideal ⟨2, ![1, b]⟩ .f32)
    (hc : (⟨2, ![1, b]⟩ : Shape).ShapeCasts ⟨2, ![1, b]⟩) (hb : (⟨2, ![1, b]⟩ : Shape).Broadcasts ⟨2, ![a, b]⟩) (i : Fin a) (j : Fin b) :
    addf x (broadcastTo ⟨2, ![a, b]⟩ (shapeCast ⟨2, ![1, b]⟩ v hc) hb) (ix2 i j) = x (ix2 i j) + v (ix2 (0 : Fin 1) j) := by
  show x (ix2 i j) + broadcastTo ⟨2, ![a, b]⟩ (shapeCast ⟨2, ![1, b]⟩ v hc) hb (ix2 i j) = _
  rw [broadcastTo_1b_ab_apply, shapeCast_self]

/-- A row's maximum, kept as a column and spread over the row, at `(r, j)`. -/
theorem rowMaxB_apply {a b : ℕ} (s : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) (r : Fin a) (j : Fin b) :
    broadcastTo ⟨2, ![a, b]⟩ (shapeCast ⟨2, ![a, 1]⟩ (multiReduction (F := Ideal) .maximumf [1] ⟨1, ![a]⟩ s 0xFF800000#32 h hφ hacc) hc) hb (ix2 r j)
      = (Finset.univ : Finset (Fin b)).fold max (Ideal.ofBits .f32 0xFF800000#32) (fun m => s (ix2 r m)) := by
  rw [broadcastTo_a1_ab_apply, shapeCast_a_a1_apply, rowMax_apply]

/-- An array divided by its rows' sums, kept as a column and spread over the rows, at `(r, j)`. -/
theorem divRowSum_apply {a b : ℕ} (e : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) (r : Fin a) (j : Fin b) :
    divf e (broadcastTo ⟨2, ![a, b]⟩ (shapeCast ⟨2, ![a, 1]⟩ (multiReduction (F := Ideal) .add [1] ⟨1, ![a]⟩ e 0x00000000#32 h hφ hacc) hc) hb) (ix2 r j)
      = Ideal.div (e (ix2 r j)) (∑ m : Fin b, e (ix2 r m)) := by
  show Ideal.div (e (ix2 r j))
    (broadcastTo ⟨2, ![a, b]⟩ (shapeCast ⟨2, ![a, 1]⟩ (multiReduction (F := Ideal) .add [1] ⟨1, ![a]⟩ e 0x00000000#32 h hφ hacc) hc) hb (ix2 r j)) = _
  rw [broadcastTo_a1_ab_apply, shapeCast_a_a1_apply, rowSum_apply]

/-! ## A scaled array, and a row softmax -/

/-- An array times a splat scalar, at an index. -/
theorem scale_apply {s : Shape} (x : FVec Ideal s .f32) (w : BitVec 32) (i : s.Idx) :
    mulf x (broadcast s (Scalar.ofBits .f32 w : Ideal .f32)) i = x i * Ideal.ofBits .f32 w := rfl

/-- A row softmax of the scores `s` whose row maxima are given spread over the rows as `mx`, at `(r, j)`. -/
theorem softmaxRows_apply {a b : ℕ} (s mx : FVec Ideal ⟨2, ![a, b]⟩ .f32)
    (hmx : ∀ (r : Fin a) (j : Fin b), mx (ix2 r j)
      = (Finset.univ : Finset (Fin b)).fold max (Ideal.ofBits .f32 0xFF800000#32) (fun m => s (ix2 r m)))
    (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) (r : Fin a) (j : Fin b) :
    divf (exp (subf s mx)) (broadcastTo ⟨2, ![a, b]⟩ (shapeCast ⟨2, ![a, 1]⟩
        (multiReduction (F := Ideal) .add [1] ⟨1, ![a]⟩ (exp (subf s mx)) 0x00000000#32 h hφ hacc) hc) hb) (ix2 r j)
      = Cert.Spec.smax (Ideal.ofBits .f32 0xFF800000#32) (fun j' => s (ix2 r j')) j := by
  refine (divRowSum_apply _ h hφ hacc hc hb r j).trans ?_
  have key : ∀ j' : Fin b, exp (subf s mx) (ix2 r j') = Ideal.exp (s (ix2 r j')
      - (Finset.univ : Finset (Fin b)).fold max (Ideal.ofBits .f32 0xFF800000#32) (fun m => s (ix2 r m))) := fun j' => by
    show Ideal.exp (s (ix2 r j') - mx (ix2 r j')) = _
    rw [hmx]
  unfold Cert.Spec.smax
  rw [key j]
  exact congrArg (Ideal.div _) (Finset.sum_congr rfl fun m _ => key m)

end Cert.KernelPay

end
-- ==== Proof.Pay1a.lean ====
/-
  A later grid step's values from its tile of 256 rows, read at an index: the tile's rows, the channel values, the scaled
  scores of the tile's queries against every key, and the scores' row maxima.
-/
import proofs.«158731_j21148418965908_2_alg».proof.Proof.PayLib

noncomputable section

namespace Cert.KernelPay

open Cert.KernelIdeal Cert.KernelIdeal.Gen Idealize.ShloMosaic Idealize.ShloMosaic.ValueIdx

/-- The tile's rows: the [1, 256, 256] block read as [256, 256]. -/
theorem pay8_apply (v6 : Vec Ideal S1x256x256 .f32) (r k : Fin 256) :
    k0_pay8 (F := Ideal) v6 (ix2 r k) = v6 (ix3 (0 : Fin 1) r k) := by
  unfold k0_pay8
  exact shapeCast_1ab_ab_apply v6 _ r k

/-- The same rows after the format change. -/
theorem pay9_apply (v6 : Vec Ideal S1x256x256 .f32) (r k : Fin 256) :
    k0_pay9 (F := Ideal) v6 (ix2 r k) = v6 (ix3 (0 : Fin 1) r k) := by
  unfold k0_pay9
  exact pay8_apply v6 r k

/-- A tile row times a [256, 16] weight matrix plus a bias row. -/
theorem tileProj_apply (v6 : Vec Ideal S1x256x256 .f32) (w : Vec Ideal S256x16 .f32) (b : Vec Ideal S1x16 .f32) (r : Fin 256) (c : Fin 16) :
    addf (matmul dot_S256x256_S256x16_S256x16_1_0_0_1_n_n none (k0_pay9 v6) (truncf .bf16 w bitsLt_bf16_f32) (constant (F := Ideal) S256x16 .f32 0x00000000#32))
        (broadcastTo S256x16 (shapeCast S1x16 b shapeCasts_S1x16_S1x16) broadcasts_S1x16_S256x16) (ix2 r c)
      = Cert.Spec.proj (fun k => v6 (ix3 (0 : Fin 1) r k)) (Cert.Spec.cur2 w) (Cert.Spec.row0 b) c := by
  unfold Cert.Spec.proj Cert.Spec.cur2 Cert.Spec.row0
  refine (addBias_apply _ b _ _ r c).trans ?_
  rw [mm_256x256_256x16]
  refine congrArg (· + _) (Finset.sum_congr rfl fun k _ => ?_)
  rw [pay9_apply]
  rfl

/-- The channel values of the tile's rows. -/
theorem pay10_apply (v6 : Vec Ideal S1x256x256 .f32) (v16 : Vec Ideal S256x16 .f32) (v19 : Vec Ideal S1x16 .f32) (r : Fin 256) (c : Fin 16) :
    k0_pay10 (F := Ideal) v6 v16 v19 (ix2 r c) = Cert.Spec.proj (fun k => v6 (ix3 (0 : Fin 1) r k)) (Cert.Spec.cur2 v16) (Cert.Spec.row0 v19) c := by
  unfold k0_pay10
  exact tileProj_apply v6 v16 v19 r c

/-- The scaled scores: a tile row's query against key `m`. -/
theorem pay11_apply (v6 : Vec Ideal S1x256x256 .f32) (v9 : Vec Ideal S256x16 .f32) (v12 : Vec Ideal S1x16 .f32) (v23 : Vec Ideal S4096x16 .bf16) (r : Fin 256) (m : Fin 4096) :
    k0_pay11 (F := Ideal) v6 v9 v12 v23 (ix2 r m)
      = (∑ c' : Fin 16, Cert.Spec.proj (fun k => v6 (ix3 (0 : Fin 1) r k)) (Cert.Spec.cur2 v9) (Cert.Spec.row0 v12) c' * Cert.Spec.cur2 v23 m c')
        * Ideal.ofBits .f32 0x3E800000#32 := by
  unfold k0_pay11
  refine (scale_apply _ _ _).trans ?_
  refine congrArg (· * _) ?_
  refine (mm_256x16_4096x16 _ _ r m).trans ?_
  refine Finset.sum_congr rfl fun c' _ => congrArg (· * _) ?_
  exact tileProj_apply v6 v9 v12 r c'

/-- The scores' row maxima, spread over the rows. -/
theorem pay12_apply (v6 : Vec Ideal S1x256x256 .f32) (v9 : Vec Ideal S256x16 .f32) (v12 : Vec Ideal S1x16 .f32) (v23 : Vec Ideal S4096x16 .bf16) (r : Fin 256) (m : Fin 4096) :
    k0_pay12 (F := Ideal) v6 v9 v12 v23 (ix2 r m)
      = (Finset.univ : Finset (Fin 4096)).fold max (Ideal.ofBits .f32 0xFF800000#32) (fun m' => k0_pay11 (F := Ideal) v6 v9 v12 v23 (ix2 r m')) := by
  unfold k0_pay12
  exact rowMaxB_apply _ _ _ _ _ _ r m

end Cert.KernelPay

end
-- ==== Proof.Pay1.lean ====
/-
  One output tile read at an index: the tile's row plus the spatial attention's row plus the projected channel
  attention's row.
-/
import proofs.«158731_j21148418965908_2_alg».proof.Proof.PayLib
import proofs.«158731_j21148418965908_2_alg».proof.Proof.Pay1a

noncomputable section

namespace Cert.KernelPay

open Cert.KernelIdeal Cert.KernelIdeal.Gen Idealize.ShloMosaic Idealize.ShloMosaic.ValueIdx

/-- The output tile from its operands as variables: `v29` the scaled scores and `v32` their row maxima spread over the
    rows. -/
theorem pay1_gen (v7 : FVec Ideal S256x256 .f32) (v22 : FVec Ideal S256x16 .f32) (v24 : Vec Ideal S4096x256 .bf16) (v25 : Vec Ideal S16x16 .f32)
    (v29 v32 : FVec Ideal S256x4096 .f32) (v44 : Vec Ideal S16x256 .f32) (v48 : Vec Ideal S1x256 .f32)
    (hmx : ∀ (r : Fin 256) (m : Fin 4096), v32 (ix2 r m)
      = (Finset.univ : Finset (Fin 4096)).fold max (Ideal.ofBits .f32 0xFF800000#32) (fun m' => v29 (ix2 r m')))
    (r c : Fin 256) :
    k0_pay1 (F := Ideal) v7 v22 v24 v25 v29 v32 v44 v48 (ix3 (0 : Fin 1) r c)
      = (v7 (ix2 r c) + ∑ m : Fin 4096, Cert.Spec.smax (Ideal.ofBits .f32 0xFF800000#32) (fun m' => v29 (ix2 r m')) m * v24 (ix2 m c))
        + ((∑ d : Fin 16, (∑ d' : Fin 16, v22 (ix2 r d') * v25 (ix2 d d')) * v44 (ix2 d c)) + v48 (ix2 (0 : Fin 1) c)) := by
  unfold k0_pay1
  refine (shapeCast_ab_1ab_apply _ _ 0 r c).trans ?_
  refine (addf_apply _ _ _).trans ?_
  refine congr (congrArg HAdd.hAdd ?_) ?_
  · refine (addf_apply _ _ _).trans ?_
    refine congrArg (v7 (ix2 r c) + ·) ?_
    refine (mm_256x4096_4096x256 _ _ r c).trans ?_
    refine Finset.sum_congr rfl fun m _ => congrArg (· * _) ?_
    exact softmaxRows_apply v29 v32 hmx _ _ _ _ _ r m
  · refine (addBias_apply _ v48 _ _ r c).trans ?_
    refine congrArg (· + _) ?_
    refine (mm_256x16_16x256 _ _ r c).trans ?_
    refine Finset.sum_congr rfl fun d _ => congrArg (· * _) ?_
    exact mm_256x16_16x16 _ _ r d

/-- One output row: the row itself, plus the attention over every key's value, plus the projected channel attention. -/
theorem pay1_apply (v6 : Vec Ideal S1x256x256 .f32) (v9 : Vec Ideal S256x16 .f32) (v12 : Vec Ideal S1x16 .f32) (v16 : Vec Ideal S256x16 .f32) (v19 : Vec Ideal S1x16 .f32) (v23 : Vec Ideal S4096x16 .bf16) (v24 : Vec Ideal S4096x256 .bf16) (v25 : Vec Ideal S16x16 .f32) (v44 : Vec Ideal S16x256 .f32) (v48 : Vec Ideal S1x256 .f32) (r c : Fin 256) :
    k0_pay1 (F := Ideal) (k0_pay8 v6) (k0_pay10 v6 v16 v19) v24 v25 (k0_pay11 v6 v9 v12 v23) (k0_pay12 v6 v9 v12 v23) v44 v48 (ix3 (0 : Fin 1) r c)
      = Cert.Spec.outRow (fun k => v6 (ix3 (0 : Fin 1) r k)) (Cert.Spec.cur2 v23) (Cert.Spec.cur2 v24) (Cert.Spec.cur2 v25) (Cert.Spec.cur2 v9) (Cert.Spec.row0 v12) (Cert.Spec.cur2 v16) (Cert.Spec.row0 v19) (Cert.Spec.cur2 v44) (Cert.Spec.row0 v48) (Ideal.ofBits .f32 0x3E800000#32) (Ideal.ofBits .f32 0xFF800000#32) c := by
  refine (pay1_gen _ _ v24 v25 _ _ v44 v48 (fun r m => pay12_apply v6 v9 v12 v23 r m) r c).trans ?_
  unfold Cert.Spec.outRow
  refine congr (congrArg HAdd.hAdd (congr (congrArg HAdd.hAdd (pay8_apply v6 r c)) ?_)) ?_
  · refine Finset.sum_congr rfl fun m _ => congrArg (· * _) ?_
    exact congrArg (fun s => Cert.Spec.smax _ s m) (funext fun m' => pay11_apply v6 v9 v12 v23 r m')
  · refine congrArg (· + _) ?_
    refine Finset.sum_congr rfl fun d _ => congrArg (· * _) ?_
    exact Finset.sum_congr rfl fun d' _ => congrArg (· * _) (pay10_apply v6 v16 v19 r d')

end Cert.KernelPay

end
-- ==== Proof.Pay3.lean ====
/-
  The first grid step's projections of the whole batch element, read at an index: the rows after the format
  change (the identity on extended reals), the keys, the values, and the channel keys.
-/
import proofs.«158731_j21148418965908_2_alg».proof.Proof.PayLib

noncomputable section

namespace Cert.KernelPay

open Cert.KernelIdeal Cert.KernelIdeal.Gen Idealize.ShloMosaic Idealize.ShloMosaic.ValueIdx

/-- The whole batch element's rows: the [1, 4096, 256] block read as [4096, 256]. -/
theorem pay2_apply (v57 : Vec Ideal S1x4096x256 .f32) (m : Fin 4096) (k : Fin 256) :
    k0_pay2 (F := Ideal) v57 (ix2 m k) = v57 (ix3 (0 : Fin 1) m k) := by
  unfold k0_pay2
  exact shapeCast_1ab_ab_apply v57 _ m k

/-- The keys: each row of the batch element times the key weights plus the key bias. -/
theorem pay3_apply (v57 : Vec Ideal S1x4096x256 .f32) (v60 : Vec Ideal S256x16 .f32) (v63 : Vec Ideal S1x16 .f32) (m : Fin 4096) (c : Fin 16) :
    k0_pay3 (F := Ideal) v57 v60 v63 (ix2 m c) = Cert.Spec.proj (fun k => v57 (ix3 (0 : Fin 1) m k)) (Cert.Spec.cur2 v60) (Cert.Spec.row0 v63) c := by
  unfold k0_pay3 Cert.Spec.proj Cert.Spec.cur2 Cert.Spec.row0
  rw [shapeCast_self]
  refine (addBias_apply _ v63 _ _ m c).trans ?_
  rw [mm_4096x256_256x16]
  refine congrArg (· + _) (Finset.sum_congr rfl fun k _ => ?_)
  rw [pay2_apply]
  rfl

/-- The values: each row of the batch element times the value weights plus the value bias. -/
theorem pay4_apply (v57 : Vec Ideal S1x4096x256 .f32) (v71 : Vec Ideal S256x256 .f32) (v74 : Vec Ideal S1x256 .f32) (m : Fin 4096) (c : Fin 256) :
    k0_pay4 (F := Ideal) v57 v71 v74 (ix2 m c) = Cert.Spec.proj (fun k => v57 (ix3 (0 : Fin 1) m k)) (Cert.Spec.cur2 v71) (Cert.Spec.row0 v74) c := by
  unfold k0_pay4 Cert.Spec.proj Cert.Spec.cur2 Cert.Spec.row0
  rw [shapeCast_self]
  refine (addBias_apply _ v74 _ _ m c).trans ?_
  rw [mm_4096x256_256x256]
  refine congrArg (· + _) (Finset.sum_congr rfl fun k _ => ?_)
  rw [pay2_apply]
  rfl

/-- The channel keys: each row of the batch element times the channel-key weights plus their bias. -/
theorem pay5_apply (v57 : Vec Ideal S1x4096x256 .f32) (v82 : Vec Ideal S256x16 .f32) (v85 : Vec Ideal S1x16 .f32) (m : Fin 4096) (c : Fin 16) :
    k0_pay5 (F := Ideal) v57 v82 v85 (ix2 m c) = Cert.Spec.proj (fun k => v57 (ix3 (0 : Fin 1) m k)) (Cert.Spec.cur2 v82) (Cert.Spec.row0 v85) c := by
  unfold k0_pay5 Cert.Spec.proj Cert.Spec.cur2 Cert.Spec.row0
  refine (addBias_apply _ v85 _ _ m c).trans ?_
  rw [mm_4096x256_256x16]
  refine congrArg (· + _) (Finset.sum_congr rfl fun k _ => ?_)
  rw [pay2_apply]
  rfl

/-- The channel-query weights after the format change are the weights. -/
theorem pay6_apply (v89 : Vec Ideal S256x16 .f32) (i : S256x16.Idx) : k0_pay6 (F := Ideal) v89 i = v89 i := rfl

end Cert.KernelPay

end
-- ==== Proof.Pay7.lean ====
/-
  The channel attention of the batch element, read at an index: the softmax over the second channel index of the
  scaled products of channel keys and channel queries summed over the rows.
-/
import proofs.«158731_j21148418965908_2_alg».proof.Proof.PayLib
import proofs.«158731_j21148418965908_2_alg».proof.Proof.Pay3

noncomputable section

namespace Cert.KernelPay

open Cert.KernelIdeal Cert.KernelIdeal.Gen Idealize.ShloMosaic Idealize.ShloMosaic.ValueIdx

/-- The channel attention: the softmax over `d` of the products of channel keys and channel queries summed over the
    batch element's rows, scaled. -/
theorem pay7_apply (v57 : Vec Ideal S1x4096x256 .f32) (v82 : Vec Ideal S256x16 .f32) (v85 : Vec Ideal S1x16 .f32) (v89 : Vec Ideal S256x16 .f32) (v92 : Vec Ideal S1x16 .f32) (c d : Fin 16) :
    k0_pay7 (F := Ideal) (k0_pay2 v57) (k0_pay5 v57 v82 v85) (k0_pay6 v89) v92 (ix2 c d)
      = Cert.Spec.chanAttn (fun n k => v57 (ix3 (0 : Fin 1) n k)) (Cert.Spec.cur2 v82) (Cert.Spec.row0 v85) (Cert.Spec.cur2 v89) (Cert.Spec.row0 v92) (Ideal.ofBits .f32 0x3E800000#32) (Ideal.ofBits .f32 0xFF800000#32) c d := by
  unfold k0_pay7 Cert.Spec.chanAttn
  refine (congrFun (shapeCast_self _ _) _).trans ?_
  refine (softmaxRows_apply _ _ ?_ _ _ _ _ _ c d).trans ?_
  · intro r j
    exact rowMaxB_apply _ _ _ _ _ _ r j
  refine congrArg (fun s => Cert.Spec.smax _ s d) (funext fun d' => ?_)
  refine (scale_apply _ _ _).trans ?_
  refine congrArg (· * _) ?_
  refine (mm_4096x16_4096x16 _ _ c d').trans ?_
  refine Finset.sum_congr rfl fun n _ => ?_
  refine congr (congrArg HMul.hMul ?_) ?_
  · exact pay5_apply v57 v82 v85 n c
  · refine (addBias_apply _ v92 _ _ n d').trans ?_
    unfold Cert.Spec.proj Cert.Spec.cur2 Cert.Spec.row0
    rw [mm_4096x256_256x16]
    refine congrArg (· + _) (Finset.sum_congr rfl fun k _ => ?_)
    rw [pay2_apply]
    rfl

end Cert.KernelPay

end
-- ==== Proof.KIdeal.lean ====
/-
  The kernel's output array is the specification: at (b, n, k) the output row of the tile is `Spec.outRow` of row n of
  batch element b, of the batch element's keys, values and channel attention — each the specification's own expression of
  the batch element's rows (read off the first argument: row n is spatial position (n / 64, n % 64)) — and of the weights.
-/
import proofs.«158731_j21148418965908_2_alg».proof.Proof.KFlush
import proofs.«158731_j21148418965908_2_alg».proof.Proof.KHost
import proofs.«158731_j21148418965908_2_alg».proof.Proof.Pay1
import proofs.«158731_j21148418965908_2_alg».proof.Proof.Pay7
import proofs.«158731_j21148418965908_2_alg».proof.Proof.Pay3
import proofs.«158731_j21148418965908_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Spec

variable (m : (ℓ : Loc nD τ sig) → Buf (Elt Ideal) ℓ)

/-- The scale 0.25 and the value the row maxima start from, as the kernel spells them. -/
abbrev qs : EReal := Ideal.ofBits .f32 0x3E800000#32
abbrev ninf : EReal := Ideal.ofBits .f32 0xFF800000#32

/-- The rows of the input window's block are the rows of the batch element of the first argument. -/
theorem X0_rows (c : Dev nD) (b : Fin 8) (n : Fin 4096) :
    (fun k : Fin 256 => X0 m c b (ix3 (0 : Fin 1) n k)) = rows (m ((c.tc : Thread nD τ).loc main_arg0)) b n := by
  funext k
  exact V_v0_apply m c b n k

theorem Ks_eq (c : Dev nD) (b : Fin 8) :
    cur2 (Ks m c b) = fun mm c' => proj (rows (m ((c.tc : Thread nD τ).loc main_arg0)) b mm) (cur2 (m ((c.tc : Thread nD τ).loc main_arg3))) (cur1 (m ((c.tc : Thread nD τ).loc main_arg4))) c' := by
  funext mm c'
  show Ks m c b (ix2 mm c') = _
  unfold Ks
  rw [Cert.KernelPay.pay3_apply, X0_rows m c b mm]
  have e2 : cur2 (V m c main_arg3 : Vec Ideal S256x16 .f32) = cur2 (m ((c.tc : Thread nD τ).loc main_arg3)) := by rw [V_main_arg3]
  have e3 : row0 (V m c main_v2 : Vec Ideal S1x16 .f32) = cur1 (m ((c.tc : Thread nD τ).loc main_arg4)) := funext fun j => V_v2_apply m c j
  rw [e2, e3]

theorem Vs_eq (c : Dev nD) (b : Fin 8) :
    cur2 (Vs m c b) = fun mm c' => proj (rows (m ((c.tc : Thread nD τ).loc main_arg0)) b mm) (cur2 (m ((c.tc : Thread nD τ).loc main_arg5))) (cur1 (m ((c.tc : Thread nD τ).loc main_arg6))) c' := by
  funext mm c'
  show Vs m c b (ix2 mm c') = _
  unfold Vs
  rw [Cert.KernelPay.pay4_apply, X0_rows m c b mm]
  have e2 : cur2 (V m c main_arg5 : Vec Ideal S256x256 .f32) = cur2 (m ((c.tc : Thread nD τ).loc main_arg5)) := by rw [V_main_arg5]
  have e3 : row0 (V m c main_v3 : Vec Ideal S1x256 .f32) = cur1 (m ((c.tc : Thread nD τ).loc main_arg6)) := funext fun j => V_v3_apply m c j
  rw [e2, e3]

theorem Cs_eq (c : Dev nD) (b : Fin 8) :
    cur2 (Cs m c b) = chanAttn (rows (m ((c.tc : Thread nD τ).loc main_arg0)) b) (cur2 (m ((c.tc : Thread nD τ).loc main_arg9))) (cur1 (m ((c.tc : Thread nD τ).loc main_arg10))) (cur2 (m ((c.tc : Thread nD τ).loc main_arg7))) (cur1 (m ((c.tc : Thread nD τ).loc main_arg8))) qs ninf := by
  funext c' d
  show Cs m c b (ix2 c' d) = _
  unfold Cs chanOf
  rw [Cert.KernelPay.pay7_apply]
  have e1 : (fun (n : Fin 4096) (k : Fin 256) => X0 m c b (ix3 (0 : Fin 1) n k)) = rows (m ((c.tc : Thread nD τ).loc main_arg0)) b :=
    funext fun n => X0_rows m c b n
  have e2 : cur2 (V m c main_arg9 : Vec Ideal S256x16 .f32) = cur2 (m ((c.tc : Thread nD τ).loc main_arg9)) := by rw [V_main_arg9]
  have e3 : row0 (V m c main_v5 : Vec Ideal S1x16 .f32) = cur1 (m ((c.tc : Thread nD τ).loc main_arg10)) := funext fun j => V_v5_apply m c j
  have e4 : cur2 (V m c main_arg7 : Vec Ideal S256x16 .f32) = cur2 (m ((c.tc : Thread nD τ).loc main_arg7)) := by rw [V_main_arg7]
  have e5 : row0 (V m c main_v4 : Vec Ideal S1x16 .f32) = cur1 (m ((c.tc : Thread nD τ).loc main_arg8)) := funext fun j => V_v4_apply m c j
  rw [e1, e2, e3, e4, e5]

/-- The output array at (b, n, k). -/
theorem Oarr_apply (c : Dev nD) (b : Fin 8) (n : Fin 4096) (k : Fin 256) :
    Oarr m c (ix3 b n k) = outAt (rows (m ((c.tc : Thread nD τ).loc main_arg0)) b) (cur2 (m ((c.tc : Thread nD τ).loc main_arg1))) (cur1 (m ((c.tc : Thread nD τ).loc main_arg2))) (cur2 (m ((c.tc : Thread nD τ).loc main_arg3))) (cur1 (m ((c.tc : Thread nD τ).loc main_arg4))) (cur2 (m ((c.tc : Thread nD τ).loc main_arg5))) (cur1 (m ((c.tc : Thread nD τ).loc main_arg6))) (cur2 (m ((c.tc : Thread nD τ).loc main_arg7))) (cur1 (m ((c.tc : Thread nD τ).loc main_arg8))) (cur2 (m ((c.tc : Thread nD τ).loc main_arg9))) (cur1 (m ((c.tc : Thread nD τ).loc main_arg10))) (cur2 (m ((c.tc : Thread nD τ).loc main_arg11))) (cur1 (m ((c.tc : Thread nD τ).loc main_arg12))) (cur2 (m ((c.tc : Thread nD τ).loc main_arg13))) (cur1 (m ((c.tc : Thread nD τ).loc main_arg14))) qs ninf n k := by
  have hb : bOf (tOf b n) = b := Fin.ext (by show (16 * b.val + n.val / 256) / 16 = b.val; have := n.isLt; omega)
  have hn : (⟨256 * ((tOf b n).val % 16) + n.val % 256, by have := n.isLt; omega⟩ : Fin 4096) = n :=
    Fin.ext (by show 256 * ((16 * b.val + n.val / 256) % 16) + n.val % 256 = n.val; have := n.isLt; omega)
  show Os m c (tOf b n) (ix3 (0 : Fin 1) (⟨n.val % 256, by omega⟩ : Fin 256) k) = _
  unfold Os outOf
  rw [Cert.KernelPay.pay1_apply, hb, Ks_eq, Vs_eq, Cs_eq]
  have ex : (fun k' : Fin 256 => tile (grid0.coords (tOf b n)) (X0 m c b) (ix3 (0 : Fin 1) (⟨n.val % 256, by omega⟩ : Fin 256) k'))
      = rows (m ((c.tc : Thread nD τ).loc main_arg0)) b n := by
    funext k'
    rw [tile_apply, hn]
    exact V_v0_apply m c b n k'
  have e1 : cur2 (V m c main_arg1 : Vec Ideal S256x16 .f32) = cur2 (m ((c.tc : Thread nD τ).loc main_arg1)) := by rw [V_main_arg1]
  have e2 : row0 (V m c main_v1 : Vec Ideal S1x16 .f32) = cur1 (m ((c.tc : Thread nD τ).loc main_arg2)) := funext fun j => V_v1_apply m c j
  have e11 : cur2 (V m c main_arg11 : Vec Ideal S256x16 .f32) = cur2 (m ((c.tc : Thread nD τ).loc main_arg11)) := by rw [V_main_arg11]
  have e12 : row0 (V m c main_v6 : Vec Ideal S1x16 .f32) = cur1 (m ((c.tc : Thread nD τ).loc main_arg12)) := funext fun j => V_v6_apply m c j
  have e13 : cur2 (V m c main_arg13 : Vec Ideal S16x256 .f32) = cur2 (m ((c.tc : Thread nD τ).loc main_arg13)) := by rw [V_main_arg13]
  have e14 : row0 (V m c main_v7 : Vec Ideal S1x256 .f32) = cur1 (m ((c.tc : Thread nD τ).loc main_arg14)) := funext fun j => V_v7_apply m c j
  rw [ex, e1, e2, e11, e12, e13, e14]
  rfl

/-- The result buffer — the reshape of the output array back to [8, 64, 64, 256] — is the specification. -/
theorem result_eq (c : Dev nD) :
    shapeCast S8x64x64x256 (Oarr m c) shapeCasts_S8x4096x256_S8x64x64x256
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) qs ninf := by
  funext i
  obtain ⟨b, h, w, k, rfl⟩ : ∃ (b : Fin 8) (h w : Fin 64) (k : Fin 256), i = ix4 b h w k := ⟨_, _, _, _, eq_ix4 i⟩
  rw [G_ix4]
  refine (shapeCast_apply (Oarr m c) shapeCasts_S8x4096x256_S8x64x64x256 (ix4 b h w k)
    (ix3 b (⟨64 * h.val + w.val, by have := h.isLt; have := w.isLt; omega⟩ : Fin 4096) k) (by
      rewrite [Shape.rowMajor_val_four, Shape.rowMajor_val_three]
      show (b.val * 4096 + (64 * h.val + w.val)) * 256 + k.val = ((b.val * 64 + h.val) * 64 + w.val) * 256 + k.val
      omega)).trans ?_
  rw [Oarr_apply]
  rfl

end Cert.KernelIdeal.KV

end
-- ==== Proof.RefProj.lean ====
import proofs.«158731_j21148418965908_2_alg».proof.Proof.Gen.ReferenceIdeal.Read
import proofs.«158731_j21148418965908_2_alg».proof.Proof.Spec

noncomputable section

namespace Cert.RefValue

open Cert.ReferenceIdeal Cert.ReferenceIdeal.Read Idealize.ShloMosaic Idealize.ShloMosaic.ValueIdx Cert.Spec

/-- The query projection at batch element `b`, row `n`, channel `c`: the affine image of row `n`. -/
theorem q_apply (x0 : (⟨S8x64x64x256, .f32⟩ : BufTy).Contents (Elt Ideal)) (x1 : (⟨S256x16, .f32⟩ : BufTy).Contents (Elt Ideal))
    (x2 : (⟨S16, .f32⟩ : BufTy).Contents (Elt Ideal)) (b : Fin 8) (n : Fin 4096) (c : Fin 16) :
    val_main_v5 (F := Ideal) x0 x1 x2 (ix3 b n c) = proj (rows x0 b n) (cur2 x1) (cur1 x2) c := by
  have hb := b.isLt
  have hn := n.isLt
  have hc := c.isLt
  rw [val_main_v5_apply, val_main_v4_apply, val_main_v1_apply, val_main_v3_apply, val_main_v2_apply]
  unfold proj rows cur2 cur1
  have e3 : idx_main_v2 (idx_main_v3 (idx_main_v5 (ix3 b n c))) = ix1 c := funext fun a => Fin.ext (by
    match a with
    | ⟨0, _⟩ => show ((b.val * 4096 + n.val) * 16 + c.val) % 16 = c.val; omega)
  rw [e3]
  show (∑ k : Fin 256, _) + _ = (∑ k : Fin 256, _) + _
  congr 1
  refine Finset.sum_congr rfl fun k _ => ?_
  have el : lidx_main_v1 (idx_main_v5 (ix3 b n c)) k
      = ix4 b (⟨n.val / 64, by omega⟩ : Fin 64) (⟨n.val % 64, by omega⟩ : Fin 64) k := funext fun a => Fin.ext (by
    match a with
    | ⟨0, _⟩ => show ((b.val * 4096 + n.val) * 16 + c.val) / 65536 = b.val; omega
    | ⟨1, _⟩ => show ((b.val * 4096 + n.val) * 16 + c.val) / 1024 % 64 = n.val / 64; omega
    | ⟨2, _⟩ => show ((b.val * 4096 + n.val) * 16 + c.val) / 16 % 64 = n.val % 64; omega
    | ⟨3, _⟩ => rfl)
  have er : ridx_main_v1 (idx_main_v5 (ix3 b n c)) k = ix2 k c := funext fun a => Fin.ext (by
    match a with
    | ⟨0, _⟩ => rfl
    | ⟨1, _⟩ => show ((b.val * 4096 + n.val) * 16 + c.val) % 16 = c.val; omega)
  rw [el, er]

/-- The value projection (256 channels wide) at batch element `b`, row `n`, channel `c`. -/
theorem v_apply (x0 : (⟨S8x64x64x256, .f32⟩ : BufTy).Contents (Elt Ideal)) (x5 : (⟨S256x256, .f32⟩ : BufTy).Contents (Elt Ideal))
    (x6 : (⟨S256, .f32⟩ : BufTy).Contents (Elt Ideal)) (b : Fin 8) (n : Fin 4096) (c : Fin 256) :
    val_main_v15 (F := Ideal) x0 x5 x6 (ix3 b n c) = proj (rows x0 b n) (cur2 x5) (cur1 x6) c := by
  have hb := b.isLt
  have hn := n.isLt
  have hc := c.isLt
  rw [val_main_v15_apply, val_main_v14_apply, val_main_v11_apply, val_main_v13_apply, val_main_v12_apply]
  unfold proj rows cur2 cur1
  have e3 : idx_main_v12 (idx_main_v13 (idx_main_v15 (ix3 b n c))) = ix1 c := funext fun a => Fin.ext (by
    match a with
    | ⟨0, _⟩ => show ((b.val * 4096 + n.val) * 256 + c.val) % 256 = c.val; omega)
  rw [e3]
  show (∑ k : Fin 256, _) + _ = (∑ k : Fin 256, _) + _
  congr 1
  refine Finset.sum_congr rfl fun k _ => ?_
  have el : lidx_main_v11 (idx_main_v15 (ix3 b n c)) k
      = ix4 b (⟨n.val / 64, by omega⟩ : Fin 64) (⟨n.val % 64, by omega⟩ : Fin 64) k := funext fun a => Fin.ext (by
    match a with
    | ⟨0, _⟩ => show ((b.val * 4096 + n.val) * 256 + c.val) / 1048576 = b.val; omega
    | ⟨1, _⟩ => show ((b.val * 4096 + n.val) * 256 + c.val) / 16384 % 64 = n.val / 64; omega
    | ⟨2, _⟩ => show ((b.val * 4096 + n.val) * 256 + c.val) / 256 % 64 = n.val % 64; omega
    | ⟨3, _⟩ => rfl)
  have er : ridx_main_v11 (idx_main_v15 (ix3 b n c)) k = ix2 k c := funext fun a => Fin.ext (by
    match a with
    | ⟨0, _⟩ => rfl
    | ⟨1, _⟩ => show ((b.val * 4096 + n.val) * 256 + c.val) % 256 = c.val; omega)
  rw [el, er]

/-- The key, and the three channel-attention projections, are the same array expression as the query at other weights. -/
theorem v10_eq (x0 : (⟨S8x64x64x256, .f32⟩ : BufTy).Contents (Elt Ideal)) (x3 : (⟨S256x16, .f32⟩ : BufTy).Contents (Elt Ideal))
    (x4 : (⟨S16, .f32⟩ : BufTy).Contents (Elt Ideal)) :
    val_main_v10 (F := Ideal) x0 x3 x4 = val_main_v5 (F := Ideal) x0 x3 x4 := rfl
theorem v36_eq (x0 : (⟨S8x64x64x256, .f32⟩ : BufTy).Contents (Elt Ideal)) (x3 : (⟨S256x16, .f32⟩ : BufTy).Contents (Elt Ideal))
    (x4 : (⟨S16, .f32⟩ : BufTy).Contents (Elt Ideal)) :
    val_main_v36 (F := Ideal) x0 x3 x4 = val_main_v5 (F := Ideal) x0 x3 x4 := rfl
theorem v41_eq (x0 : (⟨S8x64x64x256, .f32⟩ : BufTy).Contents (Elt Ideal)) (x3 : (⟨S256x16, .f32⟩ : BufTy).Contents (Elt Ideal))
    (x4 : (⟨S16, .f32⟩ : BufTy).Contents (Elt Ideal)) :
    val_main_v41 (F := Ideal) x0 x3 x4 = val_main_v5 (F := Ideal) x0 x3 x4 := rfl
theorem v46_eq (x0 : (⟨S8x64x64x256, .f32⟩ : BufTy).Contents (Elt Ideal)) (x3 : (⟨S256x16, .f32⟩ : BufTy).Contents (Elt Ideal))
    (x4 : (⟨S16, .f32⟩ : BufTy).Contents (Elt Ideal)) :
    val_main_v46 (F := Ideal) x0 x3 x4 = val_main_v5 (F := Ideal) x0 x3 x4 := rfl

end Cert.RefValue

end
-- ==== Proof.RefConsts.lean ====
import Idealize.ShloMosaic.PureOps.Ideal
import Idealize.ShloMosaic.PureOps.Ideal.Laws

noncomputable section

namespace Cert.RefValue

open Idealize.ShloMosaic

/-- The pattern 0x41800000 denotes the real 16. -/
theorem ofBits_sixteen : Ideal.ofBits .f32 0x41800000#32 = ((16 : ℝ) : EReal) := by
  simp [Ideal.ofBits, Ideal.ieee, -EReal.coe_mul]; norm_num

/-- The pattern 0x3E800000 denotes the real 1/4. -/
theorem ofBits_quarter : Ideal.ofBits .f32 0x3E800000#32 = ((1 / 4 : ℝ) : EReal) := by
  simp [Ideal.ofBits, Ideal.ieee, -EReal.coe_mul]; norm_num

/-- Dividing by the square root of 16 is multiplying by 1/4, at every extended real. -/
theorem div_sqrt_sixteen (s : EReal) :
    Ideal.div s (Ideal.sqrt (Ideal.ofBits .f32 0x41800000#32)) = s * Ideal.ofBits .f32 0x3E800000#32 := by
  have h4 : Real.sqrt 16 = 4 := by
    rw [show (16 : ℝ) = 4 ^ 2 by norm_num, Real.sqrt_sq (by norm_num)]
  rw [ofBits_sixteen, ofBits_quarter, Ideal.sqrt_coe, if_neg (by norm_num), h4]
  exact Ideal.div_coe (by norm_num) s

/-- The pattern of +0.0 added on the left changes nothing. -/
theorem zero_bits_add (S : EReal) : Ideal.ofBits .f32 0x00000000#32 + S = S := by
  rw [Ideal.ofBits_zero_f32, zero_add]

/-- A fold of `max` started at `a` is at least `a`, so taking the maximum with `a` again changes nothing. -/
theorem max_fold_self {K : Nat} (a : EReal) (f : Fin K → EReal) :
    max a (Finset.univ.fold max a f) = Finset.univ.fold max a f :=
  max_eq_right ((Finset.le_fold_max a).mpr (Or.inl le_rfl))

end Cert.RefValue

end
-- ==== Proof.RefSpatial.lean ====
import proofs.«158731_j21148418965908_2_alg».proof.Proof.RefProj
import proofs.«158731_j21148418965908_2_alg».proof.Proof.RefConsts
import Idealize.ShloMosaic.PureOps.Reduce

noncomputable section

namespace Cert.RefValue

open Cert.ReferenceIdeal Cert.ReferenceIdeal.Gen Cert.ReferenceIdeal.Read Idealize.ShloMosaic Idealize.ShloMosaic.ValueIdx Cert.Spec

/-- The scale 1/4 and the value minus infinity, as the patterns the programs spell. -/
abbrev qs : EReal := Ideal.ofBits .f32 0x3E800000#32
abbrev ninf : EReal := Ideal.ofBits .f32 0xFF800000#32

/-- A maximum-reduction of an [8, 4096, 4096] array over its last axis, started from minus infinity, at (b, n): the fold of
    `max` over the row. -/
theorem reduce_max_row (y : S8x4096x4096.Idx → EReal) (b : Fin 8) (n : Fin 4096) :
    Host.reduce (FloatOps.maximumf (F := Ideal) (φ := .f32)) y (val_main_cst_0 (F := Ideal))
        reducesTo_S8x4096x4096_S8x4096_d2 h_S_ (ix2 b n)
      = Finset.univ.fold max ninf (fun m : Fin 4096 => y (ix3 b n m)) := by
  refine (Host.reduce_eq_fold_single (α := EReal) (FloatOps.maximumf (F := Ideal) (φ := .f32)) y (val_main_cst_0 (F := Ideal))
    reducesTo_S8x4096x4096_S8x4096_d2 (by decide) h_S_ (ix2 b n)).trans ?_
  show (Finset.univ : Finset (Fin 4096)).fold max ninf _ = _
  refine Finset.fold_congr fun k _ => ?_
  exact congrArg y (funext fun a => Fin.ext (by match a with | ⟨0, _⟩ => rfl | ⟨1, _⟩ => rfl | ⟨2, _⟩ => rfl))

section Spatial

variable (x0 : (⟨S8x64x64x256, .f32⟩ : BufTy).Contents (Elt Ideal)) (x1 : (⟨S256x16, .f32⟩ : BufTy).Contents (Elt Ideal))
  (x2 : (⟨S16, .f32⟩ : BufTy).Contents (Elt Ideal)) (x3 : (⟨S256x16, .f32⟩ : BufTy).Contents (Elt Ideal))
  (x4 : (⟨S16, .f32⟩ : BufTy).Contents (Elt Ideal))

/-- The scaled score of row `n` against row `m`: the inner product of the query of `n` and the key of `m`, times 1/4. -/
theorem scores_apply (b : Fin 8) (n m : Fin 4096) :
    val_main_v18 (F := Ideal) x0 x1 x2 x3 x4 (ix3 b n m)
      = (∑ c : Fin 16, proj (rows x0 b n) (cur2 x1) (cur1 x2) c * proj (rows x0 b m) (cur2 x3) (cur1 x4) c) * qs := by
  rw [val_main_v18_apply, val_main_v16_apply, val_main_v17_apply, val_main_v0_apply, val_main_cst_apply]
  rw [Ideal.hostDivf_def, Ideal.hostUnary_sqrt_def, Ideal.ofBits_def, div_sqrt_sixteen]
  congr 1
  refine Finset.sum_congr rfl fun k _ => ?_
  have el : lidx_main_v16 (ix3 b n m) k = ix3 b n k := funext fun a => by
    match a with | ⟨0, _⟩ => rfl | ⟨1, _⟩ => rfl | ⟨2, _⟩ => rfl
  have er : ridx_main_v16 (ix3 b n m) k = ix3 b m k := funext fun a => by
    match a with | ⟨0, _⟩ => rfl | ⟨1, _⟩ => rfl | ⟨2, _⟩ => rfl
  rw [el, er, v10_eq, q_apply, q_apply]

/-- The row maximum: the fold of `max` over the row started from minus infinity. -/
theorem v19_apply (b : Fin 8) (n : Fin 4096) :
    val_main_v19 (F := Ideal) x0 x1 x2 x3 x4 (ix2 b n)
      = Finset.univ.fold max ninf (fun m : Fin 4096 => val_main_v18 (F := Ideal) x0 x1 x2 x3 x4 (ix3 b n m)) := by
  exact reduce_max_row _ b n

/-- Taking the maximum with minus infinity once more changes nothing. -/
theorem v21_apply (b : Fin 8) (n : Fin 4096) :
    val_main_v21 (F := Ideal) x0 x1 x2 x3 x4 (ix2 b n)
      = Finset.univ.fold max ninf (fun m : Fin 4096 => val_main_v18 (F := Ideal) x0 x1 x2 x3 x4 (ix3 b n m)) := by
  rw [val_main_v21_apply, val_main_v20_apply, v19_apply]
  exact max_fold_self ninf _

/-- The exponential of a score minus its row maximum. -/
theorem v25_apply (b : Fin 8) (n m : Fin 4096) :
    val_main_v25 (F := Ideal) x0 x1 x2 x3 x4 (ix3 b n m)
      = Ideal.exp (val_main_v18 (F := Ideal) x0 x1 x2 x3 x4 (ix3 b n m)
          - Finset.univ.fold max ninf (fun m' : Fin 4096 => val_main_v18 (F := Ideal) x0 x1 x2 x3 x4 (ix3 b n m'))) := by
  rw [val_main_v25_apply, val_main_v24_apply, val_main_v23_apply, val_main_v22_apply]
  have e : idx_main_v22 (idx_main_v23 (ix3 b n m)) = ix2 b n := funext fun a => by
    match a with | ⟨0, _⟩ => rfl | ⟨1, _⟩ => rfl
  rw [e, v21_apply]
  rfl

/-- The row sum of those exponentials. -/
theorem v26_apply (b : Fin 8) (n : Fin 4096) :
    val_main_v26 (F := Ideal) x0 x1 x2 x3 x4 (ix2 b n)
      = ∑ m : Fin 4096, val_main_v25 (F := Ideal) x0 x1 x2 x3 x4 (ix3 b n m) := by
  rw [val_main_v26_apply]
  refine (zero_bits_add _).trans ?_
  refine Finset.sum_congr rfl fun k _ => ?_
  exact congrArg _ (funext fun a => by match a with | ⟨0, _⟩ => rfl | ⟨1, _⟩ => rfl | ⟨2, _⟩ => rfl)

/-- The softmax of a row of scores. -/
theorem v29_apply (b : Fin 8) (n m : Fin 4096) :
    val_main_v29 (F := Ideal) x0 x1 x2 x3 x4 (ix3 b n m)
      = smax ninf (fun m' : Fin 4096 => val_main_v18 (F := Ideal) x0 x1 x2 x3 x4 (ix3 b n m')) m := by
  rw [val_main_v29_apply, val_main_v28_apply, val_main_v27_apply]
  have e : idx_main_v27 (idx_main_v28 (ix3 b n m)) = ix2 b n := funext fun a => by
    match a with | ⟨0, _⟩ => rfl | ⟨1, _⟩ => rfl
  rw [e, v26_apply, v25_apply, Ideal.hostDivf_def]
  unfold smax
  refine congrArg (Ideal.div _) ?_
  exact Finset.sum_congr rfl fun k _ => v25_apply x0 x1 x2 x3 x4 b n k

/-- The softmax of a row, with the scores written out. -/
theorem softmax_apply (b : Fin 8) (n m : Fin 4096) :
    val_main_v29 (F := Ideal) x0 x1 x2 x3 x4 (ix3 b n m)
      = smax ninf (fun m' : Fin 4096 =>
          (∑ c : Fin 16, proj (rows x0 b n) (cur2 x1) (cur1 x2) c * proj (rows x0 b m') (cur2 x3) (cur1 x4) c) * qs) m := by
  rw [v29_apply]
  exact congrArg (fun s => smax ninf s m) (funext fun m' => scores_apply x0 x1 x2 x3 x4 b n m')

end Spatial

end Cert.RefValue

end
-- ==== Proof.RefPos.lean ====
import proofs.«158731_j21148418965908_2_alg».proof.Proof.RefSpatial

noncomputable section

namespace Cert.RefValue

open Cert.ReferenceIdeal Cert.ReferenceIdeal.Read Idealize.ShloMosaic Idealize.ShloMosaic.ValueIdx Cert.Spec

section Pos

variable (x0 : (⟨S8x64x64x256, .f32⟩ : BufTy).Contents (Elt Ideal)) (x1 : (⟨S256x16, .f32⟩ : BufTy).Contents (Elt Ideal))
  (x2 : (⟨S16, .f32⟩ : BufTy).Contents (Elt Ideal)) (x3 : (⟨S256x16, .f32⟩ : BufTy).Contents (Elt Ideal))
  (x4 : (⟨S16, .f32⟩ : BufTy).Contents (Elt Ideal)) (x5 : (⟨S256x256, .f32⟩ : BufTy).Contents (Elt Ideal))
  (x6 : (⟨S256, .f32⟩ : BufTy).Contents (Elt Ideal))

/-- The spatial attention output of row `n`: the softmax weights of the row against the values. -/
theorem v30_apply (b : Fin 8) (n : Fin 4096) (c : Fin 256) :
    val_main_v30 (F := Ideal) x0 x1 x2 x3 x4 x5 x6 (ix3 b n c)
      = ∑ m : Fin 4096, smax ninf (fun m' : Fin 4096 =>
          (∑ c' : Fin 16, proj (rows x0 b n) (cur2 x1) (cur1 x2) c' * proj (rows x0 b m') (cur2 x3) (cur1 x4) c') * qs) m
          * proj (rows x0 b m) (cur2 x5) (cur1 x6) c := by
  rw [val_main_v30_apply]
  refine Finset.sum_congr rfl fun k _ => ?_
  have el : lidx_main_v30 (ix3 b n c) k = ix3 b n k := funext fun a => by
    match a with | ⟨0, _⟩ => rfl | ⟨1, _⟩ => rfl | ⟨2, _⟩ => rfl
  have er : ridx_main_v30 (ix3 b n c) k = ix3 b k c := funext fun a => by
    match a with | ⟨0, _⟩ => rfl | ⟨1, _⟩ => rfl | ⟨2, _⟩ => rfl
  rw [el, er, softmax_apply, v_apply]

/-- The same at spatial position (h, w): row 64·h + w. -/
theorem v31_apply (b : Fin 8) (h w : Fin 64) (c : Fin 256) :
    val_main_v31 (F := Ideal) x0 x1 x2 x3 x4 x5 x6 (ix4 b h w c)
      = val_main_v30 (F := Ideal) x0 x1 x2 x3 x4 x5 x6
          (ix3 b (⟨64 * h.val + w.val, by have := h.isLt; have := w.isLt; omega⟩ : Fin 4096) c) := by
  have hb := b.isLt
  have hh := h.isLt
  have hw := w.isLt
  have hc := c.isLt
  rw [val_main_v31_apply]
  exact congrArg _ (funext fun a => Fin.ext (by
    match a with
    | ⟨0, _⟩ => show (((b.val * 64 + h.val) * 64 + w.val) * 256 + c.val) / 1048576 = b.val; omega
    | ⟨1, _⟩ => show (((b.val * 64 + h.val) * 64 + w.val) * 256 + c.val) / 256 % 4096 = 64 * h.val + w.val; omega
    | ⟨2, _⟩ => show (((b.val * 64 + h.val) * 64 + w.val) * 256 + c.val) % 256 = c.val; omega))

end Pos

end Cert.RefValue

end
-- ==== Proof.RefChan.lean ====
import proofs.«158731_j21148418965908_2_alg».proof.Proof.RefSpatial

noncomputable section

namespace Cert.RefValue

open Cert.ReferenceIdeal Cert.ReferenceIdeal.Gen Cert.ReferenceIdeal.Read Idealize.ShloMosaic Idealize.ShloMosaic.ValueIdx Cert.Spec

/-- A maximum-reduction of an [8, 16, 16] array over its last axis, started from minus infinity, at (b, c): the fold of
    `max` over the row. -/
theorem reduce_max_chan (y : S8x16x16.Idx → EReal) (b : Fin 8) (c : Fin 16) :
    Host.reduce (FloatOps.maximumf (F := Ideal) (φ := .f32)) y (val_main_cst_3 (F := Ideal))
        reducesTo_S8x16x16_S8x16_d2 h_S_ (ix2 b c)
      = Finset.univ.fold max ninf (fun d : Fin 16 => y (ix3 b c d)) := by
  refine (Host.reduce_eq_fold_single (α := EReal) (FloatOps.maximumf (F := Ideal) (φ := .f32)) y (val_main_cst_3 (F := Ideal))
    reducesTo_S8x16x16_S8x16_d2 (by decide) h_S_ (ix2 b c)).trans ?_
  show (Finset.univ : Finset (Fin 16)).fold max ninf _ = _
  refine Finset.fold_congr fun k _ => ?_
  exact congrArg y (funext fun a => Fin.ext (by match a with | ⟨0, _⟩ => rfl | ⟨1, _⟩ => rfl | ⟨2, _⟩ => rfl))

section Chan

variable (x0 : (⟨S8x64x64x256, .f32⟩ : BufTy).Contents (Elt Ideal)) (x7 : (⟨S256x16, .f32⟩ : BufTy).Contents (Elt Ideal))
  (x8 : (⟨S16, .f32⟩ : BufTy).Contents (Elt Ideal)) (x9 : (⟨S256x16, .f32⟩ : BufTy).Contents (Elt Ideal))
  (x10 : (⟨S16, .f32⟩ : BufTy).Contents (Elt Ideal))

/-- The scaled channel score of key channel `c` against query channel `d`: the sum over the rows, times 1/4. -/
theorem cscores_apply (b : Fin 8) (c d : Fin 16) :
    val_main_v49 (F := Ideal) x0 x7 x8 x9 x10 (ix3 b c d)
      = (∑ n : Fin 4096, proj (rows x0 b n) (cur2 x9) (cur1 x10) c * proj (rows x0 b n) (cur2 x7) (cur1 x8) d) * qs := by
  rw [val_main_v49_apply, val_main_v47_apply, val_main_v48_apply, val_main_v0_apply, val_main_cst_apply]
  rw [Ideal.hostDivf_def, Ideal.hostUnary_sqrt_def, Ideal.ofBits_def, div_sqrt_sixteen]
  refine congrArg (· * qs) ?_
  refine Finset.sum_congr rfl fun k _ => ?_
  have el : lidx_main_v47 (ix3 b c d) k = ix3 b k c := funext fun a => by
    match a with | ⟨0, _⟩ => rfl | ⟨1, _⟩ => rfl | ⟨2, _⟩ => rfl
  have er : ridx_main_v47 (ix3 b c d) k = ix3 b k d := funext fun a => by
    match a with | ⟨0, _⟩ => rfl | ⟨1, _⟩ => rfl | ⟨2, _⟩ => rfl
  rw [el, er, v41_eq, v36_eq, q_apply, q_apply]

/-- The row maximum of the channel scores. -/
theorem v50_apply (b : Fin 8) (c : Fin 16) :
    val_main_v50 (F := Ideal) x0 x7 x8 x9 x10 (ix2 b c)
      = Finset.univ.fold max ninf (fun d : Fin 16 => val_main_v49 (F := Ideal) x0 x7 x8 x9 x10 (ix3 b c d)) := by
  exact reduce_max_chan _ b c

theorem v52_apply (b : Fin 8) (c : Fin 16) :
    val_main_v52 (F := Ideal) x0 x7 x8 x9 x10 (ix2 b c)
      = Finset.univ.fold max ninf (fun d : Fin 16 => val_main_v49 (F := Ideal) x0 x7 x8 x9 x10 (ix3 b c d)) := by
  rw [val_main_v52_apply, val_main_v51_apply, v50_apply]
  exact max_fold_self ninf _

theorem v56_apply (b : Fin 8) (c d : Fin 16) :
    val_main_v56 (F := Ideal) x0 x7 x8 x9 x10 (ix3 b c d)
      = Ideal.exp (val_main_v49 (F := Ideal) x0 x7 x8 x9 x10 (ix3 b c d)
          - Finset.univ.fold max ninf (fun d' : Fin 16 => val_main_v49 (F := Ideal) x0 x7 x8 x9 x10 (ix3 b c d'))) := by
  rw [val_main_v56_apply, val_main_v55_apply, val_main_v54_apply, val_main_v53_apply]
  have e : idx_main_v53 (idx_main_v54 (ix3 b c d)) = ix2 b c := funext fun a => by
    match a with | ⟨0, _⟩ => rfl | ⟨1, _⟩ => rfl
  rw [e, v52_apply]
  rfl

theorem v57_apply (b : Fin 8) (c : Fin 16) :
    val_main_v57 (F := Ideal) x0 x7 x8 x9 x10 (ix2 b c)
      = ∑ d : Fin 16, val_main_v56 (F := Ideal) x0 x7 x8 x9 x10 (ix3 b c d) := by
  rw [val_main_v57_apply]
  refine (zero_bits_add _).trans ?_
  refine Finset.sum_congr rfl fun k _ => ?_
  exact congrArg _ (funext fun a => by match a with | ⟨0, _⟩ => rfl | ⟨1, _⟩ => rfl | ⟨2, _⟩ => rfl)

/-- The channel attention: the softmax over `d` of the channel scores. -/
theorem v60_apply (b : Fin 8) (c d : Fin 16) :
    val_main_v60 (F := Ideal) x0 x7 x8 x9 x10 (ix3 b c d)
      = chanAttn (rows x0 b) (cur2 x9) (cur1 x10) (cur2 x7) (cur1 x8) qs ninf c d := by
  rw [val_main_v60_apply, val_main_v59_apply, val_main_v58_apply]
  have e : idx_main_v58 (idx_main_v59 (ix3 b c d)) = ix2 b c := funext fun a => by
    match a with | ⟨0, _⟩ => rfl | ⟨1, _⟩ => rfl
  rw [e, v57_apply, v56_apply, Ideal.hostDivf_def]
  have hs : (fun d' : Fin 16 => val_main_v49 (F := Ideal) x0 x7 x8 x9 x10 (ix3 b c d'))
      = fun d' : Fin 16 => (∑ n : Fin 4096, proj (rows x0 b n) (cur2 x9) (cur1 x10) c * proj (rows x0 b n) (cur2 x7) (cur1 x8) d') * qs :=
    funext fun d' => cscores_apply x0 x7 x8 x9 x10 b c d'
  unfold chanAttn smax
  rw [← hs]
  refine congrArg (Ideal.div _) ?_
  exact Finset.sum_congr rfl fun k _ => v56_apply x0 x7 x8 x9 x10 b c k

end Chan

end Cert.RefValue

end
-- ==== Proof.RefValue.lean ====
import proofs.«158731_j21148418965908_2_alg».proof.Proof.RefPos
import proofs.«158731_j21148418965908_2_alg».proof.Proof.RefChan

noncomputable section

namespace Cert.RefValue

open Cert.ReferenceIdeal Cert.ReferenceIdeal.Gen Cert.ReferenceIdeal.Read Idealize.ShloMosaic Idealize.ShloMosaic.ValueIdx Cert.Spec

section Out

variable (x0 : (⟨S8x64x64x256, .f32⟩ : BufTy).Contents (Elt Ideal)) (x7 : (⟨S256x16, .f32⟩ : BufTy).Contents (Elt Ideal))
  (x8 : (⟨S16, .f32⟩ : BufTy).Contents (Elt Ideal)) (x9 : (⟨S256x16, .f32⟩ : BufTy).Contents (Elt Ideal))
  (x10 : (⟨S16, .f32⟩ : BufTy).Contents (Elt Ideal)) (x11 : (⟨S256x16, .f32⟩ : BufTy).Contents (Elt Ideal))
  (x12 : (⟨S16, .f32⟩ : BufTy).Contents (Elt Ideal)) (x13 : (⟨S16x256, .f32⟩ : BufTy).Contents (Elt Ideal))
  (x14 : (⟨S256, .f32⟩ : BufTy).Contents (Elt Ideal))

/-- The channel-attention output of row `n` at channel `c`: the channel values against row `c` of the channel attention. -/
theorem v61_apply (b : Fin 8) (n : Fin 4096) (c : Fin 16) :
    val_main_v61 (F := Ideal) x0 x7 x8 x9 x10 x11 x12 (ix3 b n c)
      = ∑ d' : Fin 16, proj (rows x0 b n) (cur2 x11) (cur1 x12) d'
          * chanAttn (rows x0 b) (cur2 x9) (cur1 x10) (cur2 x7) (cur1 x8) qs ninf c d' := by
  rw [val_main_v61_apply]
  refine Finset.sum_congr rfl fun k _ => ?_
  have el : lidx_main_v61 (ix3 b n c) k = ix3 b n k := funext fun a => by
    match a with | ⟨0, _⟩ => rfl | ⟨1, _⟩ => rfl | ⟨2, _⟩ => rfl
  have er : ridx_main_v61 (ix3 b n c) k = ix3 b c k := funext fun a => by
    match a with | ⟨0, _⟩ => rfl | ⟨1, _⟩ => rfl | ⟨2, _⟩ => rfl
  rw [el, er, v46_eq, q_apply, v60_apply]

/-- The same at spatial position (h, w): row 64·h + w. -/
theorem v62_apply (b : Fin 8) (h w : Fin 64) (c : Fin 16) :
    val_main_v62 (F := Ideal) x0 x7 x8 x9 x10 x11 x12 (ix4 b h w c)
      = val_main_v61 (F := Ideal) x0 x7 x8 x9 x10 x11 x12
          (ix3 b (⟨64 * h.val + w.val, by have := h.isLt; have := w.isLt; omega⟩ : Fin 4096) c) := by
  have hb := b.isLt
  have hh := h.isLt
  have hw := w.isLt
  have hc := c.isLt
  rw [val_main_v62_apply]
  exact congrArg _ (funext fun a => Fin.ext (by
    match a with
    | ⟨0, _⟩ => show (((b.val * 64 + h.val) * 64 + w.val) * 16 + c.val) / 65536 = b.val; omega
    | ⟨1, _⟩ => show (((b.val * 64 + h.val) * 64 + w.val) * 16 + c.val) / 16 % 4096 = 64 * h.val + w.val; omega
    | ⟨2, _⟩ => show (((b.val * 64 + h.val) * 64 + w.val) * 16 + c.val) % 16 = c.val; omega))

/-- The output projection of the channel-attention output, plus its bias. -/
theorem v66_apply (b : Fin 8) (h w : Fin 64) (c : Fin 256) :
    val_main_v66 (F := Ideal) x0 x7 x8 x9 x10 x11 x12 x13 x14 (ix4 b h w c)
      = (∑ d : Fin 16, (∑ d' : Fin 16,
            proj (rows x0 b (⟨64 * h.val + w.val, by have := h.isLt; have := w.isLt; omega⟩ : Fin 4096)) (cur2 x11) (cur1 x12) d'
              * chanAttn (rows x0 b) (cur2 x9) (cur1 x10) (cur2 x7) (cur1 x8) qs ninf d d') * cur2 x13 d c)
          + cur1 x14 c := by
  rw [val_main_v66_apply, val_main_v63_apply, val_main_v65_apply, val_main_v64_apply]
  have e3 : idx_main_v64 (idx_main_v65 (ix4 b h w c)) = ix1 c := funext fun a => by
    match a with | ⟨0, _⟩ => rfl
  rw [e3]
  show (∑ k : Fin 16, _) + _ = (∑ k : Fin 16, _) + _
  refine congrArg (· + cur1 x14 c) ?_
  refine Finset.sum_congr rfl fun k _ => ?_
  have el : lidx_main_v63 (ix4 b h w c) k = ix4 b h w k := funext fun a => by
    match a with | ⟨0, _⟩ => rfl | ⟨1, _⟩ => rfl | ⟨2, _⟩ => rfl | ⟨3, _⟩ => rfl
  have er : ridx_main_v63 (ix4 b h w c) k = ix2 k c := funext fun a => by
    match a with | ⟨0, _⟩ => rfl | ⟨1, _⟩ => rfl
  rw [el, er, v62_apply, v61_apply]
  rfl

end Out

/-- The row of `x` at spatial position (h, w) is row 64·h + w of its batch element. -/
theorem rows_hw (x0 : (⟨S8x64x64x256, .f32⟩ : BufTy).Contents (Elt Ideal)) (b : Fin 8) (h w : Fin 64) (c : Fin 256) :
    x0 (ix4 b h w c) = rows x0 b (⟨64 * h.val + w.val, by have := h.isLt; have := w.isLt; omega⟩ : Fin 4096) c := by
  have hh := h.isLt
  have hw := w.isLt
  unfold rows
  exact congrArg x0 (funext fun a => Fin.ext (by
    match a with
    | ⟨0, _⟩ => rfl
    | ⟨1, _⟩ => show h.val = (64 * h.val + w.val) / 64; omega
    | ⟨2, _⟩ => show w.val = (64 * h.val + w.val) % 64; omega
    | ⟨3, _⟩ => rfl))

/-- The reference computes the specification. -/
theorem ref_eq
    (x0 : (⟨S8x64x64x256, .f32⟩ : BufTy).Contents (Elt Ideal)) (x1 : (⟨S256x16, .f32⟩ : BufTy).Contents (Elt Ideal)) (x2 : (⟨S16, .f32⟩ : BufTy).Contents (Elt Ideal)) (x3 : (⟨S256x16, .f32⟩ : BufTy).Contents (Elt Ideal)) (x4 : (⟨S16, .f32⟩ : BufTy).Contents (Elt Ideal)) (x5 : (⟨S256x256, .f32⟩ : BufTy).Contents (Elt Ideal)) (x6 : (⟨S256, .f32⟩ : BufTy).Contents (Elt Ideal)) (x7 : (⟨S256x16, .f32⟩ : BufTy).Contents (Elt Ideal)) (x8 : (⟨S16, .f32⟩ : BufTy).Contents (Elt Ideal)) (x9 : (⟨S256x16, .f32⟩ : BufTy).Contents (Elt Ideal)) (x10 : (⟨S16, .f32⟩ : BufTy).Contents (Elt Ideal)) (x11 : (⟨S256x16, .f32⟩ : BufTy).Contents (Elt Ideal)) (x12 : (⟨S16, .f32⟩ : BufTy).Contents (Elt Ideal)) (x13 : (⟨S16x256, .f32⟩ : BufTy).Contents (Elt Ideal)) (x14 : (⟨S256, .f32⟩ : BufTy).Contents (Elt Ideal)) :
    Cert.ReferenceIdeal.Read.val_main_v68 (F := Ideal) x0 x1 x2 x3 x4 x5 x6 x7 x8 x9 x10 x11 x12 x13 x14
      = Cert.Spec.G x0 x1 x2 x3 x4 x5 x6 x7 x8 x9 x10 x11 x12 x13 x14 (Ideal.ofBits .f32 0x3E800000#32) (Ideal.ofBits .f32 0xFF800000#32) := by
  funext i
  obtain ⟨b, h, w, c, rfl⟩ : ∃ (b : Fin 8) (h w : Fin 64) (c : Fin 256), i = ix4 b h w c := ⟨_, _, _, _, eq_ix4 i⟩
  rw [Cert.Spec.G_ix4, val_main_v68_apply, val_main_v67_apply, v66_apply, v31_apply, v30_apply, rows_hw x0 b h w c]
  rfl

end Cert.RefValue

end
-- ==== Proof.lean ====
/-
  A fused dual attention over x : f32[8, 64, 64, 256] against its jnp reference, as equal functions on the extended reals.

  Both programs compute, for every batch element with rows X (4096 spatial positions, 256 channels),
      out = X + softmax((Q·Kᵀ)·s)·V + (CV·Aᵀ)·Wp + bp,      A = softmax over d of (CKᵀ·CQ)·s,
  with Q, K, V, CQ, CK, CV affine images of the rows. The kernel walks a grid of 8 × 16 points: at the first row tile of a
  batch element it computes K, V and A once into scratch buffers, and at every row tile it computes 256 output rows from
  them; the reference computes whole arrays. The two spellings differ in three places only, each an identity on every
  extended real: the kernel multiplies the scores by 0.25 where the reference divides by sqrt 16; the reference takes one
  more maximum with −∞ before subtracting the row maximum; and the reference's sums start from an explicit zero. Format
  changes are identities, and a matrix product is the same sum over the contracted index on both sides. So no
  finiteness of the inputs is used.

  The specification (Spec.lean) states that function once; the kernel's result array is shown to be it (KPieces … KIdeal and
  the payload lemmas Pay*), the reference's result array likewise (Ref*), and the two are joined here. The idealized kernel
  is the kernel's own operations read over the extended reals, so nothing has to be said to relate the two.
-/
import proofs.«158731_j21148418965908_2_alg».proof.Defs
import proofs.«158731_j21148418965908_2_alg».proof.Proof.Gen.Kernel
import proofs.«158731_j21148418965908_2_alg».proof.Proof.Gen.Kernel.Skeleton
import proofs.«158731_j21148418965908_2_alg».proof.Proof.Gen.Kernel.Launch
import proofs.«158731_j21148418965908_2_alg».proof.Proof.Gen.Kernel.Points
import proofs.«158731_j21148418965908_2_alg».proof.Proof.Gen.Kernel.Frame
import proofs.«158731_j21148418965908_2_alg».proof.Proof.Gen.KernelIdeal
import proofs.«158731_j21148418965908_2_alg».proof.Proof.Gen.KernelIdeal.Skeleton
import proofs.«158731_j21148418965908_2_alg».proof.Proof.Gen.KernelIdeal.Launch
import proofs.«158731_j21148418965908_2_alg».proof.Proof.Gen.KernelIdeal.Points
import proofs.«158731_j21148418965908_2_alg».proof.Proof.Gen.KernelIdeal.Frame
import proofs.«158731_j21148418965908_2_alg».proof.Proof.Gen.ReferenceIdeal
import proofs.«158731_j21148418965908_2_alg».proof.Proof.Gen.Pre_finite_inputs
import proofs.«158731_j21148418965908_2_alg».proof.Proof.Gen.ReferenceIdeal.Run
import proofs.«158731_j21148418965908_2_alg».proof.Proof.Gen.ReferenceIdeal.Read
import proofs.«158731_j21148418965908_2_alg».proof.Proof.KRun
import proofs.«158731_j21148418965908_2_alg».proof.Proof.KIdeal
import proofs.«158731_j21148418965908_2_alg».proof.Proof.RefValue
import Idealize.ShloMosaic.Adequacy
import Idealize.ShloMosaic.Init

set_option maxRecDepth 16384

noncomputable section

namespace Cert.Proof

open Idealize.ShloMosaic Idealize.SL.Sem

/-- The three programs run, fault-free, and leave their arguments as they found them. -/
theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the specification's array of the
    arguments as their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) Cert.KernelIdeal.KV.qs Cert.KernelIdeal.KV.ninf, ?_, ?_⟩
  · exact (θ_run Cert.KernelIdeal.defs _ _).mono
      (fun _ h c => ⟨(h c).1.trans (Cert.KernelIdeal.KV.result_eq m c), (h c).2⟩) (Cert.KernelIdeal.KV.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v68_eq, Cert.RefValue.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
